-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S16x7 .f32) (main_arg5 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg4
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x16 .f32) (main_arg3 : FVec F S16 .f32) (main_arg4 : FVec F S16x7 .f32) (main_arg5 : FVec F S7 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S1x16 : Shape := ⟨2, ![1, 16]⟩
abbrev S1x7 : Shape := ⟨2, ![1, 7]⟩
abbrev S10000x7 : Shape := ⟨2, ![10000, 7]⟩
abbrev S400x10000 : Shape := ⟨2, ![400, 10000]⟩
abbrev S400x7 : Shape := ⟨2, ![400, 7]⟩
abbrev S10000x16 : Shape := ⟨2, ![10000, 16]⟩
abbrev S400x16 : Shape := ⟨2, ![400, 16]⟩

abbrev nBuf : Space → Nat
  | .hbm => 10
  | .vmem => 15
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x16, .f32⟩
  | .hbm, ⟨7, _⟩ => ⟨S1x7, .f32⟩
  | .hbm, ⟨8, _⟩ => ⟨S10000x7, .f32⟩
  | .hbm, ⟨9, _⟩ => ⟨S10000x7, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x16, .f32⟩
  | .local _ .vmem, ⟨4, _⟩ => ⟨S1x16, .f32⟩
  | .local _ .vmem, ⟨5, _⟩ => ⟨S16x7, .f32⟩
  | .local _ .vmem, ⟨6, _⟩ => ⟨S400x7, .f32⟩
  | .local _ .vmem, ⟨7, _⟩ => ⟨S400x7, .f32⟩
  | .local _ .vmem, ⟨8, _⟩ => ⟨S10000x16, .f32⟩
  | .local _ .vmem, ⟨9, _⟩ => ⟨S400x10000, .f32⟩
  | .local _ .vmem, ⟨10, _⟩ => ⟨S400x10000, .f32⟩
  | .local _ .vmem, ⟨11, _⟩ => ⟨S10000x7, .f32⟩
  | .local _ .vmem, ⟨12, _⟩ => ⟨S1x7, .f32⟩
  | .local _ .vmem, ⟨13, _⟩ => ⟨S400x7, .f32⟩
  | .local _ .vmem, ⟨14, _⟩ => ⟨S400x7, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x7 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16_S1x16 : S16.ShapeCasts S1x16
  shapeCasts_S7_S1x7 : S7.ShapeCasts S1x7
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x7_S16x7_0_0 : ∀ a, (![0, 0] : Fin 2 → Nat) a + S16x7.size a ≤ S16x7.size a
  h_S16x7 : 0 < S16x7.numel
  inb_S400x7_S400x7_0_0 : ∀ a, (![0, 0] : Fin 2 → Nat) a + S400x7.size a ≤ S400x7.size a
  h_S400x7 : 0 < S400x7.numel
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x7_S400x7_1_0_0_1_n_n_wf : DotDims.WF S400x16 S16x7 S400x7 [1] [0] [0] [1] [] []
  dot_S400x10000_S10000x7_S400x7_1_0_0_1_n_n_wf : DotDims.WF S400x10000 S10000x7 S400x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x7.size a ≤ S16x7.size a
  hwx0_4 : ∀ i : grid0.Coords, EltTy.bits .f32 = 32 ∨ (Rect.block (s := S16x7) S16x7.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x7.size a ≤ S10000x7.size a
  hwx0_5 : ∀ i : grid0.Coords, EltTy.bits .f32 = 32 ∨ (Rect.block (s := S10000x7) S400x7.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x7.size a ≤ S10000x7.size a
  hwx1_1 : ∀ i : grid1.Coords, EltTy.bits .f32 = 32 ∨ (Rect.block (s := S10000x7) S10000x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x7.size a ≤ S1x7.size a
  hwx1_2 : ∀ i : grid1.Coords, EltTy.bits .f32 = 32 ∨ (Rect.block (s := S1x7) S1x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x7.size a ≤ S10000x7.size a
  hwx1_3 : ∀ i : grid1.Coords, EltTy.bits .f32 = 32 ∨ (Rect.block (s := S10000x7) S400x7.size (cc1_transform_3 i) (hinb1_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x7_S400x7_1_0_0_1_n_n : DotDims S400x16 S16x7 S400x7 where
  lhsContracting := [1]
  rhsContracting := [0]
  lhsNonContracting := [0]
  rhsNonContracting := [1]
  lhsBatch := []
  rhsBatch := []
  wf := dot_S400x16_S16x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x7.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S10000x16 : Shape := ⟨2, ![10000, 16]⟩
abbrev S1x16 : Shape := ⟨2, ![1, 16]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x7_S10000x7_1_0_0_1_n_n_wf : DotDims.WF S10000x16 S16x7 S10000x7 [1] [0] [0] [1] [] []
  dot_S10000x10000_S10000x7_S10000x7_1_0_0_1_n_n_wf : DotDims.WF S10000x10000 S10000x7 S10000x7 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.Spec.lean ====
/-
  The mathematics both programs compute, as functions over the extended reals.  With A the 10000 × 10000 adjacency
  matrix, X the 10000 × 128 features, W₁ (128 × 16), b₁ (16), W₂ (16 × 7), b₂ (7):

      S₁ = X · W₁                         the first-layer support
      H  = max (A · S₁ + b₁, 0)           the hidden layer, the bias added to every row
      S₂ = H · W₂                         the second-layer support
      L  = A · S₂ + b₂                    the result

  Every product is the plain sum over the contracted index.  A row of S₂ and a row of L depend on ONE row of A
  (and on all of S₁, respectively S₂), so they are stated first as functions of a row, over literal index types.
-/
import Idealize.ShloMosaic.PureOps.Ideal
import Idealize.ShloMosaic.Lib.ValueIdx

noncomputable section

namespace Cert.TwoLayer

open Idealize.ShloMosaic Idealize.ShloMosaic.ValueIdx

/-- Matrices and vectors over the extended reals, indexed as the programs index their arrays. -/
abbrev Mat (r c : Nat) : Type := (⟨2, ![r, c]⟩ : Shape).Idx → EReal
abbrev Vec1 (n : Nat) : Type := (⟨1, ![n]⟩ : Shape).Idx → EReal

/-- One entry of a hidden row: the adjacency row `a` against column `k` of the support, plus the bias, clamped at zero from below. -/
def hiddenRow (a : Fin 10000 → EReal) (s1 : Mat 10000 16) (b1 : Fin 16 → EReal) (k : Fin 16) : EReal :=
  max ((∑ k' : Fin 10000, a k' * s1 (ix2 k' k)) + b1 k) 0

/-- One entry of a row of the second-layer support: the hidden row against column `q` of the second weights. -/
def support2Row (a : Fin 10000 → EReal) (s1 : Mat 10000 16) (b1 : Fin 16 → EReal) (W2 : Mat 16 7) (q : Fin 7) : EReal :=
  ∑ k : Fin 16, hiddenRow a s1 b1 k * W2 (ix2 k q)

/-- One entry of a row of the result: the adjacency row `a` against column `q` of the second-layer support, plus the bias. -/
def logitRow (a : Fin 10000 → EReal) (s2 : Mat 10000 7) (b2 : Fin 7 → EReal) (q : Fin 7) : EReal :=
  (∑ k' : Fin 10000, a k' * s2 (ix2 k' q)) + b2 q

/-- S₁ = X · W₁. -/
def support1 (X : Mat 10000 128) (W1 : Mat 128 16) : Mat 10000 16 :=
  fun j => ∑ k : Fin 128, X (ix2 (j 0) k) * W1 (ix2 k (j 1))

/-- S₂ = max (A · S₁ + b₁, 0) · W₂, row by row. -/
def support2 (A : Mat 10000 10000) (s1 : Mat 10000 16) (b1 : Vec1 16) (W2 : Mat 16 7) : Mat 10000 7 :=
  fun j => support2Row (fun k' => A (ix2 (j 0) k')) s1 (fun k => b1 (ix1 k)) W2 (j 1)

/-- L = A · S₂ + b₂, row by row. -/
def logits (A : Mat 10000 10000) (s2 : Mat 10000 7) (b2 : Vec1 7) : Mat 10000 7 :=
  fun j => logitRow (fun k' => A (ix2 (j 0) k')) s2 (fun q => b2 (ix1 q)) (j 1)

/-- The result as one function of the six argument arrays. -/
def G (A : Mat 10000 10000) (X : Mat 10000 128) (W1 : Mat 128 16) (b1 : Vec1 16) (W2 : Mat 16 7) (b2 : Vec1 7) : Mat 10000 7 :=
  logits A (support2 A (support1 X W1) b1 W2) b2

end Cert.TwoLayer

end
-- ==== Proof.FirstPass.lean ====
/-
  The first pass, one grid point at a time.  At the first point the body multiplies the feature matrix by the first
  weight matrix and keeps the product (the first-layer support, 10000 × 16) in a scratch buffer; at every point it
  reads rows `400 t … 400 t + 399` of the adjacency matrix, multiplies them by the support kept in the scratch, adds
  the bias row, clamps at zero from below, multiplies by the second weight matrix and leaves that 400 × 7 block in
  the output window.  The support is computed once and read at every point, so the invariant after the first
  point says that the scratch holds the support.
-/
import proofs.«116573_g28578712387911_cont_9to1_884_2_alg».proof.Proof.Gen.Kernel.Launch
import proofs.«116573_g28578712387911_cont_9to1_884_2_alg».proof.Proof.Gen.Kernel.Skeleton
import proofs.«116573_g28578712387911_cont_9to1_884_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test "is this the first grid point", from the grid coordinate. -/
abbrev isFirst (i : grid0.Coords) : Prop := (Scalar.cmpi .ne (Scalar.extui (Scalar.cmpi .eq (BitVec.ofNat 32 (i 0).val) 0#32)) 0#32) = 1#1
/-- It holds at point 0 and nowhere else on the grid. -/
theorem isFirst_iff : ∀ t : Fin cfg0.N, isFirst (grid0.coords t) ↔ t.val = 0 :=
  (by decide +kernel : ∀ t : Fin grid0.N, isFirst (grid0.coords t) ↔ t.val = 0)

/-- The whole-buffer rectangles the body loads and stores through. -/
abbrev rA_adj : Rect S400x10000 := Rect.unit (s := S400x10000) ![0, 0] S400x10000.size inb_S400x10000_S400x10000_0_0
abbrev rA_feat : Rect S10000x128 := Rect.unit (s := S10000x128) ![0, 0] S10000x128.size inb_S10000x128_S10000x128_0_0
abbrev rA_w1 : Rect S128x16 := Rect.unit (s := S128x16) ![0, 0] S128x16.size inb_S128x16_S128x16_0_0
abbrev rA_b1 : Rect S1x16 := Rect.unit (s := S1x16) ![0, 0] S1x16.size inb_S1x16_S1x16_0_0
abbrev rA_w2 : Rect S16x7 := Rect.unit (s := S16x7) ![0, 0] S16x7.size inb_S16x7_S16x7_0_0
abbrev rA_out : Rect S400x7 := Rect.unit (s := S400x7) ![0, 0] S400x7.size inb_S400x7_S400x7_0_0
abbrev rA_sup : Rect S10000x16 := Rect.unit (s := S10000x16) ![0, 0] S10000x16.size inb_S10000x16_S10000x16_0_0

/-- The scratch buffer that keeps the first-layer support. -/
abbrev supM : Memref sig .tc .vmem S10000x16 .f32 := Memref.whole cc0_scratch0

/-- What the first point leaves in the scratch: its one store, of the features times the first weights. -/
def supA (x1 : Vec F S10000x128 .f32) (x2 : Vec F S128x16 .f32) : Vec F S10000x16 .f32 :=
  View.canon [⟨rA_sup, k0_pay1 (View.ld x1 rA_feat) (View.ld x2 rA_w1)⟩]

/-- What a point leaves in the output block, from the adjacency rows, the support in the scratch, the bias row and the
    second weights. -/
def outA (x0 : Vec F S400x10000 .f32) (s : Vec F S10000x16 .f32) (x3 : Vec F S1x16 .f32) (x4 : Vec F S16x7 .f32) : Vec F S400x7 .f32 :=
  View.canon [⟨rA_out, k0_pay2 (View.ld x0 rA_adj) (View.ld s rA_sup) (View.ld x3 rA_b1) (View.ld x4 rA_w2)⟩]

theorem coverA_out (p0 : Vec F S400x7 .f32) (y : S400x7.Idx) :
    ∃ pc ∈ ([⟨rA_out, p0⟩] : List (View.Piece (Elt F) S400x7 .f32)), y ∈ pc.1.set :=
  View.cover_of_tiled [⟨rA_out, p0⟩] S400x7.size (by rfl) y
theorem coverA_sup (p0 : Vec F S10000x16 .f32) (y : S10000x16.Idx) :
    ∃ pc ∈ ([⟨rA_sup, p0⟩] : List (View.Piece (Elt F) S10000x16 .f32)), y ∈ pc.1.set :=
  View.cover_of_tiled [⟨rA_sup, p0⟩] S10000x16.size (by rfl) y

set_option maxHeartbeats 1000000 in
/-- The body at the first grid point, on whole staging buffers: the five inputs are read and left as they were; the scratch,
    whatever it held, ends at the support `supA`; the output block ends at `outA` of the adjacency rows and that support. -/
theorem runA_first (c : Dev nD) (E : Set ℕ) (i : grid0.Coords) (hi : isFirst i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S16x7 .f32) (harg5 : arg5.IsWhole) (arg6 : Memref sig .tc .vmem S400x7 .f32) (harg6 : arg6.IsWhole)
    (arg7 : Memref sig .tc .vmem S10000x16 .f32) (harg7 : arg7.IsWhole)
    (x0 : Vec F S400x10000 .f32) (x1 : Vec F S10000x128 .f32) (x2 : Vec F S128x16 .f32) (x3 : Vec F S1x16 .f32) (x4 : Vec F S16x7 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outA x0 (supA x1 x2) x3 x4) ∗ owns (c : Thread nD τ) arg7 fullShare (supA x1 x2)) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverA_out _)).trans ?_
    unfold outA supA
    sl_unfold_run_names
    rw [View.readCov_eq_canon_ld _ _ _ (coverA_sup _)]
    rfl
  · iexists _; isplitr
    swap; · iexact H6
    ipureintro
    sl_unfold_run_names
    exact View.read_writes_eq_canon _ _ _ (coverA_sup _)

set_option maxHeartbeats 1000000 in
/-- The body at a later grid point: the scratch holds `s` and is only read; the output block ends at `outA` of the
    adjacency rows and `s`. -/
theorem runA_later (c : Dev nD) (E : Set ℕ) (i : grid0.Coords) (hi : ¬isFirst i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S16x7 .f32) (harg5 : arg5.IsWhole) (arg6 : Memref sig .tc .vmem S400x7 .f32) (harg6 : arg6.IsWhole)
    (arg7 : Memref sig .tc .vmem S10000x16 .f32) (harg7 : arg7.IsWhole)
    (x0 : Vec F S400x10000 .f32) (x1 : Vec F S10000x128 .f32) (x2 : Vec F S128x16 .f32) (x3 : Vec F S1x16 .f32) (x4 : Vec F S16x7 .f32)
    (s : Vec F S10000x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outA x0 s x3 x4) ∗ owns (c : Thread nD τ) arg7 fullShare s) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverA_out _)
  · iexists f6; isplitr; · ipureintro; rfl
    iexact H6

section First
variable (V : (c : Dev nD) → (b : Ref sig .tc) → Buf (Elt F) ((c : Thread nD τ).loc b))

/-- Block `t` of window `w` of the first pass, read off the array as the pass finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there. -/
theorem foundA0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem foundA1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem foundA2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)
theorem foundA3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)
theorem foundA4_of {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)

/-- The first grid point. -/
abbrev pt0 : Fin cfg0.N := ⟨0, by decide⟩

/-- The support the first point computes and every later point reads: the features times the first weights. -/
def supOf (c : Dev nD) : Vec F S10000x16 .f32 := supA (blkA V c 1 pt0) (blkA V c 2 pt0)

/-- The scoped buffers that belong to the other pass, each at some contents: nothing here touches them. -/
def restA (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant before position `n`: before the first point the scratch holds anything; afterwards it holds the support. -/
def PhiS (c : Dev nD) : ℕ → sProp 𝕄
  | 0 => Pipeline.ΦA spec0 c
  | _ + 1 => iprop((owns (c : Thread nD τ) supM fullShare (supOf V c) ∗ restA c) ∗ (∃ r, prngReg c r))

theorem PhiA_eq (c : Dev nD) :
    (Pipeline.ΦA spec0 c : sProp 𝕄) = iprop(((∃ d, owns (c : Thread nD τ) supM fullShare d) ∗ restA c) ∗ (∃ r, prngReg c r)) := by
  unfold Pipeline.ΦA restA; rw [scopedRest0_eq]; simp only [supM, owns_whole]; try rfl

theorem PhiS_pos (c : Dev nD) (n : ℕ) (hz : n ≠ 0) :
    PhiS V c n = iprop((owns (c : Thread nD τ) supM fullShare (supOf V c) ∗ restA c) ∗ (∃ r, prngReg c r)) := by
  cases n with
  | zero => exact absurd rfl hz
  | succ n => rfl

/-- The proof data of the first pass: the arrays as the pass finds them; each input's buffer at its block, the output's
    at `outA` of the adjacency rows, the support, the bias row and the second weights; nothing owed, full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => outA (blkA V c 0 t) (supOf V c) (blkA V c 3 t) (blkA V c 4 t)
  Φ t := PhiS V c t.val
  q _ := fullShare
  owed _ := 0

theorem datA_A (c : Dev nD) (w : Fin cfg0.W) : (datA V c).A w = V c (Pipeline.arrRef spec0 w) := by
  dsimp only [datA]
theorem datA_after0 (c : Dev nD) (t : Fin cfg0.N) : (datA V c).after 0 t = blkA V c 0 t := by dsimp only [datA]
theorem datA_after1 (c : Dev nD) (t : Fin cfg0.N) : (datA V c).after 1 t = blkA V c 1 t := by dsimp only [datA]
theorem datA_after2 (c : Dev nD) (t : Fin cfg0.N) : (datA V c).after 2 t = blkA V c 2 t := by dsimp only [datA]
theorem datA_after3 (c : Dev nD) (t : Fin cfg0.N) : (datA V c).after 3 t = blkA V c 3 t := by dsimp only [datA]
theorem datA_after4 (c : Dev nD) (t : Fin cfg0.N) : (datA V c).after 4 t = blkA V c 4 t := by dsimp only [datA]
theorem datA_after5 (c : Dev nD) (t : Fin cfg0.N) : (datA V c).after 5 t = outA (blkA V c 0 t) (supOf V c) (blkA V c 3 t) (blkA V c 4 t) := by dsimp only [datA]
theorem datA_before0 (c : Dev nD) (t : Fin cfg0.N) (d) : (datA V c).before 0 t d = blkA V c 0 t :=
  foundA0_of V (datA V c) (datA_A V c 0) (datA_after0 V c) t d
theorem datA_before1 (c : Dev nD) (t : Fin cfg0.N) (d) : (datA V c).before 1 t d = blkA V c 1 t :=
  foundA1_of V (datA V c) (datA_A V c 1) (datA_after1 V c) t d
theorem datA_before2 (c : Dev nD) (t : Fin cfg0.N) (d) : (datA V c).before 2 t d = blkA V c 2 t :=
  foundA2_of V (datA V c) (datA_A V c 2) (datA_after2 V c) t d
theorem datA_before3 (c : Dev nD) (t : Fin cfg0.N) (d) : (datA V c).before 3 t d = blkA V c 3 t :=
  foundA3_of V (datA V c) (datA_A V c 3) (datA_after3 V c) t d
theorem datA_before4 (c : Dev nD) (t : Fin cfg0.N) (d) : (datA V c).before 4 t d = blkA V c 4 t :=
  foundA4_of V (datA V c) (datA_A V c 4) (datA_after4 V c) t d

theorem datA_Phi_castSucc (c : Dev nD) (t : Fin cfg0.N) : (datA V c).Φ t.castSucc = PhiS V c t.val := by
  dsimp only [datA]; simp only [Fin.coe_castSucc]
theorem datA_Phi_succ (c : Dev nD) (t : Fin cfg0.N) : (datA V c).Φ t.succ = PhiS V c (t.val + 1) := rfl

def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d)))

def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t))

set_option maxHeartbeats 2000000 in
/-- The body at any point.  At the first point the invariant hands over the scratch at anything and takes it back at the
    support; at a later point it hands it over at the support and takes it back unchanged. -/
theorem soundA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1, datA_before2, datA_before3, datA_before4]
  rw [show (datA V c).owesAt () t.succ = (datA V c).owesAt () t.castSucc from rfl,
    datA_Phi_succ, datA_Phi_castSucc, PhiS_pos V c (t.val + 1) (Nat.succ_ne_zero _),
    datA_after0, datA_after1, datA_after2, datA_after3, datA_after4, datA_after5]
  by_cases hz : t.val = 0
  · obtain rfl : t = pt0 := Fin.ext hz
    rw [show PhiS V c (pt0 : Fin cfg0.N).val = Pipeline.ΦA spec0 c from rfl, PhiA_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (runA_first c Set.univ (grid0.coords pt0) ((isFirst_iff pt0).mpr rfl) _ _ _ _ _ _ _ _ _ _ _ _ _ _
      (blkA V c 0 pt0) (blkA V c 1 pt0) (blkA V c 2 pt0) (blkA V c 3 pt0) (blkA V c 4 pt0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c t.val hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (runA_later c Set.univ (grid0.coords t) (fun h => hz ((isFirst_iff t).mp h)) _ _ _ _ _ _ _ _ _ _ _ _ _ _
      (blkA V c 0 t) (blkA V c 1 t) (blkA V c 2 t) (blkA V c 3 t) (blkA V c 4 t) (supOf V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation of the first pass, at every point. -/
theorem obligationA (c : Dev nD) : BodyObligation (datA (F := F) V c) (defs₀ (F := F)) Variants.none () Set.univ := fun t => by
  rw [bigSep_W0, bigSep_W0]
  exact soundA V c t

/-- What the region hands the pass is the invariant before the first point. -/
theorem hinA (c : Dev nD) : Pipeline.ΦA spec0 c ⊢ (datA V c).Φ 0 := by
  rw [show (datA V c).Φ 0 = Pipeline.ΦA spec0 c from rfl]

/-- After the last point the invariant gives the scratch back at some contents. -/
theorem houtA (c : Dev nD) : (datA V c).Φ (Fin.last cfg0.N) ⊢ Pipeline.ΦA spec0 c := by
  rw [show (datA V c).Φ (Fin.last cfg0.N) = PhiS V c (Fin.last cfg0.N).val from rfl,
    PhiS_pos V c _ (by rw [Fin.val_last]; have : cfg0.N = 25 := N_0; omega), PhiA_eq]
  iintro ⟨⟨HS, Hrest⟩, Hg⟩
  isplitl [HS Hrest]
  · isplitl [HS]; · iexists _; iexact HS
    iexact Hrest
  iexact Hg

end First

end Cert.Kernel.Hand

end
-- ==== Proof.SecondPass.lean ====
/-
  The second pass, one grid point at a time.  At point `t` the body reads rows `400 t … 400 t + 399` of the
  adjacency matrix, the whole second-layer support (a 10000 × 7 matrix) and the bias row, and leaves in the
  output block the product of the adjacency rows with the support, plus the bias on every row.  Nothing is
  kept between points, so the invariant is only "the scratch buffers and the generator register are somewhere".
-/
import proofs.«116573_g28578712387911_cont_9to1_884_2_alg».proof.Proof.Gen.Kernel.Launch
import proofs.«116573_g28578712387911_cont_9to1_884_2_alg».proof.Proof.Gen.Kernel.Skeleton
import proofs.«116573_g28578712387911_cont_9to1_884_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Second
variable (V : (c : Dev nD) → (b : Ref sig .tc) → Buf (Elt F) ((c : Thread nD τ).loc b))

/-- Block `t` of window `w` of the second pass, read off the array as the pass finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched there
    (an unfetched block has not moved). -/
theorem foundB0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem foundB1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)
theorem foundB2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- The whole-buffer rectangles the body loads and stores through. -/
abbrev rB_adj : Rect S400x10000 := Rect.unit (s := S400x10000) ![0, 0] S400x10000.size inb_S400x10000_S400x10000_0_0
abbrev rB_sup : Rect S10000x7 := Rect.unit (s := S10000x7) ![0, 0] S10000x7.size inb_S10000x7_S10000x7_0_0
abbrev rB_bias : Rect S1x7 := Rect.unit (s := S1x7) ![0, 0] S1x7.size inb_S1x7_S1x7_0_0
abbrev rB_out : Rect S400x7 := Rect.unit (s := S400x7) ![0, 0] S400x7.size inb_S400x7_S400x7_0_0

/-- What the body leaves in the output block: its one store, of the adjacency rows times the support plus the bias. -/
def outB (x0 : Vec F S400x10000 .f32) (x1 : Vec F S10000x7 .f32) (x2 : Vec F S1x7 .f32) : Vec F S400x7 .f32 :=
  View.canon [⟨rB_out, k1_pay1 (View.ld x0 rB_adj) (View.ld x1 rB_sup) (View.ld x2 rB_bias)⟩]

/-- The one store covers the output block. -/
theorem coverB (p0 : Vec F S400x7 .f32) (y : S400x7.Idx) :
    ∃ pc ∈ ([⟨rB_out, p0⟩] : List (View.Piece (Elt F) S400x7 .f32)), y ∈ pc.1.set :=
  View.cover_of_tiled [⟨rB_out, p0⟩] S400x7.size (by rfl) y

set_option maxHeartbeats 1000000 in
/-- The body on whole staging buffers: the three inputs are read and left as they were, the output block ends at `outB`. -/
theorem runB (c : Dev nD) (E : Set ℕ) (i : grid1.Coords) (arg1 : Memref sig .tc .vmem S400x10000 .f32) (harg1 : arg1.IsWhole) (arg2 : Memref sig .tc .vmem S10000x7 .f32) (harg2 : arg2.IsWhole) (arg3 : Memref sig .tc .vmem S1x7 .f32) (harg3 : arg3.IsWhole) (arg4 : Memref sig .tc .vmem S400x7 .f32) (harg4 : arg4.IsWhole)
    (x0 : Vec F S400x10000 .f32) (x1 : Vec F S10000x7 .f32) (x2 : Vec F S1x7 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outB x0 x1 x2)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-- The proof data of the second pass: the arrays as the pass finds them; each input's buffer at its block and the
    output's at `outB` of the input blocks; nothing owed, full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => outB (blkB V c 0 t) (blkB V c 1 t) (blkB V c 2 t)
  Φ _ := Pipeline.ΦA spec1 c
  q _ := fullShare
  owed _ := 0

theorem datB_A (c : Dev nD) (w : Fin cfg1.W) : (datB V c).A w = V c (Pipeline.arrRef spec1 w) := by
  dsimp only [datB]
theorem datB_after0 (c : Dev nD) (t : Fin cfg1.N) : (datB V c).after 0 t = blkB V c 0 t := by dsimp only [datB]
theorem datB_after1 (c : Dev nD) (t : Fin cfg1.N) : (datB V c).after 1 t = blkB V c 1 t := by dsimp only [datB]
theorem datB_after2 (c : Dev nD) (t : Fin cfg1.N) : (datB V c).after 2 t = blkB V c 2 t := by dsimp only [datB]
theorem datB_after3 (c : Dev nD) (t : Fin cfg1.N) : (datB V c).after 3 t = outB (blkB V c 0 t) (blkB V c 1 t) (blkB V c 2 t) := by dsimp only [datB]

theorem datB_before0 (c : Dev nD) (t : Fin cfg1.N) (d) : (datB V c).before 0 t d = blkB V c 0 t :=
  foundB0_of V (datB V c) (datB_A V c 0) (datB_after0 V c) t d
theorem datB_before1 (c : Dev nD) (t : Fin cfg1.N) (d) : (datB V c).before 1 t d = blkB V c 1 t :=
  foundB1_of V (datB V c) (datB_A V c 1) (datB_after1 V c) t d
theorem datB_before2 (c : Dev nD) (t : Fin cfg1.N) (d) : (datB V c).before 2 t d = blkB V c 2 t :=
  foundB2_of V (datB V c) (datB_A V c 2) (datB_after2 V c) t d

def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d)))

def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t))

theorem soundB (c : Dev nD) (t : Fin cfg1.N) :
    preB V c t ⊢ wp frame (wpE (defs₀ (F := F)) Variants.none c none) Set.univ (bodyAt1 t) (fun _ => postB V c t) := by
  unfold preB postB bodyAt1
  simp only [datB_before0, datB_before1, datB_before2]
  rw [show (datB V c).Φ t.succ = (datB V c).Φ t.castSucc from rfl,
    show (datB V c).owesAt () t.succ = (datB V c).owesAt () t.castSucc from rfl,
    datB_after0, datB_after1, datB_after2, datB_after3]
  iintro ⟨HΦ, Ho, ⟨%d0, H0⟩, ⟨%d1, H1⟩, ⟨%d2, H2⟩, ⟨%d3, H3⟩⟩
  iapply (runB c Set.univ _ _ _ _ _ _ _ _ _ (blkB V c 0 t) (blkB V c 1 t) (blkB V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second pass, at every point. -/
theorem obligationB (c : Dev nD) : BodyObligation (datB (F := F) V c) (defs₀ (F := F)) Variants.none () Set.univ := fun t => by
  rw [bigSep_W1, bigSep_W1]
  exact soundB V c t

end Second

end Cert.Kernel.Hand

end
-- ==== Proof.Run.lean ====
/-
  The whole program: two reshapes of the bias vectors, the first pass, the second pass.  The contents of every
  buffer that outlives a pass are followed from the launch to the end: the reshapes write the two bias rows; the
  first pass writes only the second-layer support (its output array, block by block); the second pass writes only the
  result.  So each argument ends as launched, and the result array ends at what the second pass's 25 write-backs
  leave, computed from the arrays as the second pass finds them.
-/
import proofs.«116573_g28578712387911_cont_9to1_884_2_alg».proof.Proof.FirstPass
import proofs.«116573_g28578712387911_cont_9to1_884_2_alg».proof.Proof.SecondPass

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev memLaunch : Dev nD → Valuation τ sig (Elt F) := fun c b => m (c, b)
/-- After the two reshapes: what the first pass finds. -/
abbrev memA : Dev nD → Valuation τ sig (Elt F) := fun c => StableHlo.after hostOps0 (memLaunch m c)
abbrev inA : (c : Dev nD) → (b : Ref sig .tc) → Buf (Elt F) ((c : Thread nD τ).loc b) := fun c b => memA m c b

/-- The reshapes write only the two bias rows. -/
theorem memA_of_ne (c : Dev nD) (b : Ref sig .tc) (h0 : b ≠ main_v0) (h1 : b ≠ main_v1) :
    memA m c (Proc.devRef .tc b) = memLaunch m c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- After the first pass: its arrays at what its write-backs leave, every other buffer as the pass found it. -/
def memB (c : Dev nD) : Valuation τ sig (Elt F) :=
  Pipeline.withArrays spec0 c (memA m c) fun w => (datA (inA m) c).arrAt w cfg0.N
theorem memB_arr (c : Dev nD) (w : Fin cfg0.W) :
    memB m c (Proc.devRef .tc (Pipeline.arrRef spec0 w)) = (datA (inA m) c).arrAt w cfg0.N := by
  unfold memB; exact Pipeline.withArrays_arr spec0 launch0.win.arr_inj c _ _ w
theorem memB_of_ne (c : Dev nD) (b : Ref sig .tc) (hb : ∀ w, Pipeline.arrRef spec0 w ≠ b) :
    memB m c (Proc.devRef .tc b) = memA m c (Proc.devRef .tc b) := by
  unfold memB; exact Pipeline.withArrays_of_ne spec0 c _ _ b hb
abbrev inB : (c : Dev nD) → (b : Ref sig .tc) → Buf (Elt F) ((c : Thread nD τ).loc b) := fun c b => memB m c b
theorem leftA (c : Dev nD) (w : Fin cfg0.W) : (datA (inA m) c).arrAt w cfg0.N = inB m c (Pipeline.arrRef spec0 w) :=
  (memB_arr m c w).symm
theorem keptA (c : Dev nD) : ∀ b, b ∉ Finset.univ.image (Pipeline.arrRef spec0) → inB m c b = inA m c b :=
  fun b hb => memB_of_ne m c b fun w e => hb (Finset.mem_image.mpr ⟨w, Finset.mem_univ _, e⟩)

/-- After the second pass: the end. -/
def memEnd (c : Dev nD) : Valuation τ sig (Elt F) :=
  Pipeline.withArrays spec1 c (memB m c) fun w => (datB (inB m) c).arrAt w cfg1.N
theorem memEnd_arr (c : Dev nD) (w : Fin cfg1.W) :
    memEnd m c (Proc.devRef .tc (Pipeline.arrRef spec1 w)) = (datB (inB m) c).arrAt w cfg1.N := by
  unfold memEnd; exact Pipeline.withArrays_arr spec1 launch1.win.arr_inj c _ _ w
theorem memEnd_of_ne (c : Dev nD) (b : Ref sig .tc) (hb : ∀ w, Pipeline.arrRef spec1 w ≠ b) :
    memEnd m c (Proc.devRef .tc b) = memB m c (Proc.devRef .tc b) := by
  unfold memEnd; exact Pipeline.withArrays_of_ne spec1 c _ _ b hb
abbrev atEnd : (c : Dev nD) → (b : Ref sig .tc) → Buf (Elt F) ((c : Thread nD τ).loc b) := fun c b => memEnd m c b
theorem leftB (c : Dev nD) (w : Fin cfg1.W) : (datB (inB m) c).arrAt w cfg1.N = atEnd m c (Pipeline.arrRef spec1 w) :=
  (memEnd_arr m c w).symm
theorem keptB (c : Dev nD) : ∀ b, b ∉ Finset.univ.image (Pipeline.arrRef spec1) → atEnd m c b = inB m c b :=
  fun b hb => memEnd_of_ne m c b fun w e => hb (Finset.mem_image.mpr ⟨w, Finset.mem_univ _, e⟩)

/-! ## The arguments end as launched -/

/-- `main_arg0` ends as launched: neither reshape writes it, and a pass only reads it or passes it by. -/
theorem memEnd_main_arg0 (c : Dev nD) : memEnd m c (Proc.devRef .tc main_arg0) = m ((c : Thread nD τ).loc main_arg0) :=
  calc memEnd m c (Proc.devRef .tc main_arg0)
    _ = memB m c (Proc.devRef .tc main_arg0) := (memEnd_arr m c 0).trans (((datB (inB m) c).arrAt_in 0 rfl _).trans (datB_A (inB m) c 0))
    _ = memA m c (Proc.devRef .tc main_arg0) := (memB_arr m c 0).trans (((datA (inA m) c).arrAt_in 0 rfl _).trans (datA_A (inA m) c 0))
    _ = memLaunch m c (Proc.devRef .tc main_arg0) := memA_of_ne m c main_arg0 (by decide) (by decide)
    _ = m ((c : Thread nD τ).loc main_arg0) := rfl
/-- `main_arg1` ends as launched: neither reshape writes it, and a pass only reads it or passes it by. -/
theorem memEnd_main_arg1 (c : Dev nD) : memEnd m c (Proc.devRef .tc main_arg1) = m ((c : Thread nD τ).loc main_arg1) :=
  calc memEnd m c (Proc.devRef .tc main_arg1)
    _ = memB m c (Proc.devRef .tc main_arg1) := memEnd_of_ne m c main_arg1 (by decide)
    _ = memA m c (Proc.devRef .tc main_arg1) := (memB_arr m c 1).trans (((datA (inA m) c).arrAt_in 1 rfl _).trans (datA_A (inA m) c 1))
    _ = memLaunch m c (Proc.devRef .tc main_arg1) := memA_of_ne m c main_arg1 (by decide) (by decide)
    _ = m ((c : Thread nD τ).loc main_arg1) := rfl
/-- `main_arg2` ends as launched: neither reshape writes it, and a pass only reads it or passes it by. -/
theorem memEnd_main_arg2 (c : Dev nD) : memEnd m c (Proc.devRef .tc main_arg2) = m ((c : Thread nD τ).loc main_arg2) :=
  calc memEnd m c (Proc.devRef .tc main_arg2)
    _ = memB m c (Proc.devRef .tc main_arg2) := memEnd_of_ne m c main_arg2 (by decide)
    _ = memA m c (Proc.devRef .tc main_arg2) := (memB_arr m c 2).trans (((datA (inA m) c).arrAt_in 2 rfl _).trans (datA_A (inA m) c 2))
    _ = memLaunch m c (Proc.devRef .tc main_arg2) := memA_of_ne m c main_arg2 (by decide) (by decide)
    _ = m ((c : Thread nD τ).loc main_arg2) := rfl
/-- `main_arg3` ends as launched: neither reshape writes it, and a pass only reads it or passes it by. -/
theorem memEnd_main_arg3 (c : Dev nD) : memEnd m c (Proc.devRef .tc main_arg3) = m ((c : Thread nD τ).loc main_arg3) :=
  calc memEnd m c (Proc.devRef .tc main_arg3)
    _ = memB m c (Proc.devRef .tc main_arg3) := memEnd_of_ne m c main_arg3 (by decide)
    _ = memA m c (Proc.devRef .tc main_arg3) := memB_of_ne m c main_arg3 (by decide)
    _ = memLaunch m c (Proc.devRef .tc main_arg3) := memA_of_ne m c main_arg3 (by decide) (by decide)
    _ = m ((c : Thread nD τ).loc main_arg3) := rfl
/-- `main_arg4` ends as launched: neither reshape writes it, and a pass only reads it or passes it by. -/
theorem memEnd_main_arg4 (c : Dev nD) : memEnd m c (Proc.devRef .tc main_arg4) = m ((c : Thread nD τ).loc main_arg4) :=
  calc memEnd m c (Proc.devRef .tc main_arg4)
    _ = memB m c (Proc.devRef .tc main_arg4) := memEnd_of_ne m c main_arg4 (by decide)
    _ = memA m c (Proc.devRef .tc main_arg4) := (memB_arr m c 4).trans (((datA (inA m) c).arrAt_in 4 rfl _).trans (datA_A (inA m) c 4))
    _ = memLaunch m c (Proc.devRef .tc main_arg4) := memA_of_ne m c main_arg4 (by decide) (by decide)
    _ = m ((c : Thread nD τ).loc main_arg4) := rfl
/-- `main_arg5` ends as launched: neither reshape writes it, and a pass only reads it or passes it by. -/
theorem memEnd_main_arg5 (c : Dev nD) : memEnd m c (Proc.devRef .tc main_arg5) = m ((c : Thread nD τ).loc main_arg5) :=
  calc memEnd m c (Proc.devRef .tc main_arg5)
    _ = memB m c (Proc.devRef .tc main_arg5) := memEnd_of_ne m c main_arg5 (by decide)
    _ = memA m c (Proc.devRef .tc main_arg5) := memB_of_ne m c main_arg5 (by decide)
    _ = memLaunch m c (Proc.devRef .tc main_arg5) := memA_of_ne m c main_arg5 (by decide) (by decide)
    _ = m ((c : Thread nD τ).loc main_arg5) := rfl

/-! ## The proof data of both passes and the state between segments -/

abbrev adm : (p : Fin 2) → (pcfgs (F := F) p).Adm := fun p => (cfgs p).toPCfg_adm
/-- Both passes' proof data, each at the contents its pass finds. -/
def pdats : (p : Fin 2) → (c : Dev nD) → Dat τ (Elt F) Unit ℕ (UR sig nD τ) ℕ (Pipeline.pin (pcfgs (F := F)) adm p) c
  | ⟨0, _⟩ => fun c => datA (inA m) c
  | ⟨1, _⟩ => fun c => datB (inB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (memEnd m c) ∗ ∃ r, prngReg c r)

/-! ## The two passes as segments -/

set_option backward.isDefEq.respectTransparency.types false in
def regA : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationA (inA m) c).loose
  hwaits := Pipeline.hwaits_of_owed_zero _ _ _ _ L lv 0 fun _ _ => rfl
  pre c := iprop(StableHlo.held (c : Thread nD τ) (Pipeline.ucRefs τ sig) (memA m c) ∗ R c)
  post c := iprop(StableHlo.held (c : Thread nD τ) (Pipeline.ucRefs τ sig) (memB m c) ∗ R c)
  X c := iprop(∃ r, prngReg c r)
  Y c := iprop(∃ r, prngReg c r)
  Z c := Pipeline.unscopedRest (Ix := Unit) (Name := ℕ) (U := UR sig nD τ) (Lvl := ℕ) spec0 c (inA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (inA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (datA (inA m) c).Φ (Fin.last cfg0.N) from rfl]
    have hgive := houtA (inA m) c
    unfold Pipeline.ΦA at hgive
    have hsort : iprop(Pipeline.scopedRest (Ix := Unit) (Name := ℕ) (U := UR sig nD τ) (Lvl := ℕ) (Val := Elt F) spec0 c ∗ ∃ r, prngReg c r)
        ⊢ (iprop((∃ r, prngReg c r) ∗ BI.emp ∗ Pipeline.scopedRest (Ix := Unit) (Name := ℕ) (U := UR sig nD τ) (Lvl := ℕ) (Val := Elt F) spec0 c) : sProp 𝕄) := by
      iintro ⟨Hr, Hp⟩
      isplitl [Hp]; · iexact Hp
      isplitr; · iempintro
      iexact Hr
    exact hgive.trans hsort
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (inA m c) (inB m c) ((pdats m 0 c).arrAt · cfg0.N) (leftA m c) (keptA m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regB : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationB (inB m) c).loose
  hwaits := Pipeline.hwaits_of_owed_zero _ _ _ _ L lv 1 fun _ _ => rfl
  pre c := iprop(StableHlo.held (c : Thread nD τ) (Pipeline.ucRefs τ sig) (memB m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (inB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (inB m c) (atEnd m c) ((pdats m 1 c).arrAt · cfg1.N) (leftB m c) (keptB m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (memLaunch m)),
    .region (regA m),
    .region (regB m) ]
theorem main_run (c : Dev nD) : main (F := F) c = Pipeline.Seg.run (segs m) := (main_chain c).trans (by chain_rfl)

set_option backward.isDefEq.respectTransparency.types false in
/-- From any memory with zero counters every weakly fair execution of the program terminates without a fault; the result
    array ends at what the second pass's write-backs leave and every argument array ends as launched. -/
theorem run : θ_run defs (onTc (τ := τ) (main (F := F))) ⟨m, fun _ => 0, ρ⟩ (fun r => ∀ c : Dev nD,
      r.2.mem ((c.tc : Thread nD τ).loc main_v3) = (datB (inB m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m c b)
    (hfin := fun c s' => by
      iintro ⟨⟨Hh, -⟩, HSI⟩
      unfold StableHlo.held
      imodintro
      iapply (pointsTo_read_all (Pipeline.ucRefs τ sig) (fun b => (((c : Thread nD τ)).1, b)) (memEnd m c) s')
      isplitl [Hh] <;> iassumption)
    (hQ := fun s h c =>
      ⟨(h c _ (mem_uc main_v3 (by decide))).trans (memEnd_arr m c 3),
       (h c _ (mem_uc main_arg0 (by decide))).trans (memEnd_main_arg0 m c),
       (h c _ (mem_uc main_arg1 (by decide))).trans (memEnd_main_arg1 m c),
       (h c _ (mem_uc main_arg2 (by decide))).trans (memEnd_main_arg2 m c),
       (h c _ (mem_uc main_arg3 (by decide))).trans (memEnd_main_arg3 m c),
       (h c _ (mem_uc main_arg4 (by decide))).trans (memEnd_main_arg4 m c),
       (h c _ (mem_uc main_arg5 (by decide))).trans (memEnd_main_arg5 m c)⟩)

end Cert.Kernel.Hand

end
-- ==== Proof.FirstPassIdeal.lean ====
/-
  The first pass, one grid point at a time.  At the first point the body multiplies the feature matrix by the first
  weight matrix and keeps the product (the first-layer support, 10000 × 16) in a scratch buffer; at every point it
  reads rows `400 t … 400 t + 399` of the adjacency matrix, multiplies them by the support kept in the scratch, adds
  the bias row, clamps at zero from below, multiplies by the second weight matrix and leaves that 400 × 7 block in
  the output window.  The support is computed once and read at every point, so the invariant after the first
  point says that the scratch holds the support.
-/
import proofs.«116573_g28578712387911_cont_9to1_884_2_alg».proof.Proof.Gen.KernelIdeal.Launch
import proofs.«116573_g28578712387911_cont_9to1_884_2_alg».proof.Proof.Gen.KernelIdeal.Skeleton
import proofs.«116573_g28578712387911_cont_9to1_884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test "is this the first grid point", from the grid coordinate. -/
abbrev isFirst (i : grid0.Coords) : Prop := (Scalar.cmpi .ne (Scalar.extui (Scalar.cmpi .eq (BitVec.ofNat 32 (i 0).val) 0#32)) 0#32) = 1#1
/-- It holds at point 0 and nowhere else on the grid. -/
theorem isFirst_iff : ∀ t : Fin cfg0.N, isFirst (grid0.coords t) ↔ t.val = 0 :=
  (by decide +kernel : ∀ t : Fin grid0.N, isFirst (grid0.coords t) ↔ t.val = 0)

/-- The whole-buffer rectangles the body loads and stores through. -/
abbrev rA_adj : Rect S400x10000 := Rect.unit (s := S400x10000) ![0, 0] S400x10000.size inb_S400x10000_S400x10000_0_0
abbrev rA_feat : Rect S10000x128 := Rect.unit (s := S10000x128) ![0, 0] S10000x128.size inb_S10000x128_S10000x128_0_0
abbrev rA_w1 : Rect S128x16 := Rect.unit (s := S128x16) ![0, 0] S128x16.size inb_S128x16_S128x16_0_0
abbrev rA_b1 : Rect S1x16 := Rect.unit (s := S1x16) ![0, 0] S1x16.size inb_S1x16_S1x16_0_0
abbrev rA_w2 : Rect S16x7 := Rect.unit (s := S16x7) ![0, 0] S16x7.size inb_S16x7_S16x7_0_0
abbrev rA_out : Rect S400x7 := Rect.unit (s := S400x7) ![0, 0] S400x7.size inb_S400x7_S400x7_0_0
abbrev rA_sup : Rect S10000x16 := Rect.unit (s := S10000x16) ![0, 0] S10000x16.size inb_S10000x16_S10000x16_0_0

/-- The scratch buffer that keeps the first-layer support. -/
abbrev supM : Memref sig .tc .vmem S10000x16 .f32 := Memref.whole cc0_scratch0

/-- What the first point leaves in the scratch: its one store, of the features times the first weights. -/
def supA (x1 : Vec F S10000x128 .f32) (x2 : Vec F S128x16 .f32) : Vec F S10000x16 .f32 :=
  View.canon [⟨rA_sup, k0_pay1 (View.ld x1 rA_feat) (View.ld x2 rA_w1)⟩]

/-- What a point leaves in the output block, from the adjacency rows, the support in the scratch, the bias row and the
    second weights. -/
def outA (x0 : Vec F S400x10000 .f32) (s : Vec F S10000x16 .f32) (x3 : Vec F S1x16 .f32) (x4 : Vec F S16x7 .f32) : Vec F S400x7 .f32 :=
  View.canon [⟨rA_out, k0_pay2 (View.ld x0 rA_adj) (View.ld s rA_sup) (View.ld x3 rA_b1) (View.ld x4 rA_w2)⟩]

theorem coverA_out (p0 : Vec F S400x7 .f32) (y : S400x7.Idx) :
    ∃ pc ∈ ([⟨rA_out, p0⟩] : List (View.Piece (Elt F) S400x7 .f32)), y ∈ pc.1.set :=
  View.cover_of_tiled [⟨rA_out, p0⟩] S400x7.size (by rfl) y
theorem coverA_sup (p0 : Vec F S10000x16 .f32) (y : S10000x16.Idx) :
    ∃ pc ∈ ([⟨rA_sup, p0⟩] : List (View.Piece (Elt F) S10000x16 .f32)), y ∈ pc.1.set :=
  View.cover_of_tiled [⟨rA_sup, p0⟩] S10000x16.size (by rfl) y

set_option maxHeartbeats 1000000 in
/-- The body at the first grid point, on whole staging buffers: the five inputs are read and left as they were; the scratch,
    whatever it held, ends at the support `supA`; the output block ends at `outA` of the adjacency rows and that support. -/
theorem runA_first (c : Dev nD) (E : Set ℕ) (i : grid0.Coords) (hi : isFirst i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S16x7 .f32) (harg5 : arg5.IsWhole) (arg6 : Memref sig .tc .vmem S400x7 .f32) (harg6 : arg6.IsWhole)
    (arg7 : Memref sig .tc .vmem S10000x16 .f32) (harg7 : arg7.IsWhole)
    (x0 : Vec F S400x10000 .f32) (x1 : Vec F S10000x128 .f32) (x2 : Vec F S128x16 .f32) (x3 : Vec F S1x16 .f32) (x4 : Vec F S16x7 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outA x0 (supA x1 x2) x3 x4) ∗ owns (c : Thread nD τ) arg7 fullShare (supA x1 x2)) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverA_out _)).trans ?_
    unfold outA supA
    sl_unfold_run_names
    rw [View.readCov_eq_canon_ld _ _ _ (coverA_sup _)]
    rfl
  · iexists _; isplitr
    swap; · iexact H6
    ipureintro
    sl_unfold_run_names
    exact View.read_writes_eq_canon _ _ _ (coverA_sup _)

set_option maxHeartbeats 1000000 in
/-- The body at a later grid point: the scratch holds `s` and is only read; the output block ends at `outA` of the
    adjacency rows and `s`. -/
theorem runA_later (c : Dev nD) (E : Set ℕ) (i : grid0.Coords) (hi : ¬isFirst i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S16x7 .f32) (harg5 : arg5.IsWhole) (arg6 : Memref sig .tc .vmem S400x7 .f32) (harg6 : arg6.IsWhole)
    (arg7 : Memref sig .tc .vmem S10000x16 .f32) (harg7 : arg7.IsWhole)
    (x0 : Vec F S400x10000 .f32) (x1 : Vec F S10000x128 .f32) (x2 : Vec F S128x16 .f32) (x3 : Vec F S1x16 .f32) (x4 : Vec F S16x7 .f32)
    (s : Vec F S10000x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outA x0 s x3 x4) ∗ owns (c : Thread nD τ) arg7 fullShare s) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverA_out _)
  · iexists f6; isplitr; · ipureintro; rfl
    iexact H6

section First
variable (V : (c : Dev nD) → (b : Ref sig .tc) → Buf (Elt F) ((c : Thread nD τ).loc b))

/-- Block `t` of window `w` of the first pass, read off the array as the pass finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there. -/
theorem foundA0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem foundA1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem foundA2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)
theorem foundA3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)
theorem foundA4_of {c : Dev nD} (dat : Dat τ (Elt F) Unit ℕ (UR sig nD τ) ℕ cfg0 c) (hA : dat.A 4 = V c (Pipeline.arrRef spec0 4))
    (hafter : ∀ t, dat.after 4 t = blkA V c 4 t) (t : Fin cfg0.N) (d) : dat.before 4 t d = blkA V c 4 t :=
  (dat.before_in_eq_fetched 4 rfl (fun _ => rfl) (fun _ _ _ => rfl) (fun t => by rw [hafter]; unfold Dat.blockOf blkA; rw [hA]; try rfl) t d).trans
    (by unfold Dat.fetched Dat.blockOf blkA; rw [hA]; try rfl)

/-- The first grid point. -/
abbrev pt0 : Fin cfg0.N := ⟨0, by decide⟩

/-- The support the first point computes and every later point reads: the features times the first weights. -/
def supOf (c : Dev nD) : Vec F S10000x16 .f32 := supA (blkA V c 1 pt0) (blkA V c 2 pt0)

/-- The scoped buffers that belong to the other pass, each at some contents: nothing here touches them. -/
def restA (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant before position `n`: before the first point the scratch holds anything; afterwards it holds the support. -/
def PhiS (c : Dev nD) : ℕ → sProp 𝕄
  | 0 => Pipeline.ΦA spec0 c
  | _ + 1 => iprop((owns (c : Thread nD τ) supM fullShare (supOf V c) ∗ restA c) ∗ (∃ r, prngReg c r))

theorem PhiA_eq (c : Dev nD) :
    (Pipeline.ΦA spec0 c : sProp 𝕄) = iprop(((∃ d, owns (c : Thread nD τ) supM fullShare d) ∗ restA c) ∗ (∃ r, prngReg c r)) := by
  unfold Pipeline.ΦA restA; rw [scopedRest0_eq]; simp only [supM, owns_whole]; try rfl

theorem PhiS_pos (c : Dev nD) (n : ℕ) (hz : n ≠ 0) :
    PhiS V c n = iprop((owns (c : Thread nD τ) supM fullShare (supOf V c) ∗ restA c) ∗ (∃ r, prngReg c r)) := by
  cases n with
  | zero => exact absurd rfl hz
  | succ n => rfl

/-- The proof data of the first pass: the arrays as the pass finds them; each input's buffer at its block, the output's
    at `outA` of the adjacency rows, the support, the bias row and the second weights; nothing owed, full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => outA (blkA V c 0 t) (supOf V c) (blkA V c 3 t) (blkA V c 4 t)
  Φ t := PhiS V c t.val
  q _ := fullShare
  owed _ := 0

theorem datA_A (c : Dev nD) (w : Fin cfg0.W) : (datA V c).A w = V c (Pipeline.arrRef spec0 w) := by
  dsimp only [datA]
theorem datA_after0 (c : Dev nD) (t : Fin cfg0.N) : (datA V c).after 0 t = blkA V c 0 t := by dsimp only [datA]
theorem datA_after1 (c : Dev nD) (t : Fin cfg0.N) : (datA V c).after 1 t = blkA V c 1 t := by dsimp only [datA]
theorem datA_after2 (c : Dev nD) (t : Fin cfg0.N) : (datA V c).after 2 t = blkA V c 2 t := by dsimp only [datA]
theorem datA_after3 (c : Dev nD) (t : Fin cfg0.N) : (datA V c).after 3 t = blkA V c 3 t := by dsimp only [datA]
theorem datA_after4 (c : Dev nD) (t : Fin cfg0.N) : (datA V c).after 4 t = blkA V c 4 t := by dsimp only [datA]
theorem datA_after5 (c : Dev nD) (t : Fin cfg0.N) : (datA V c).after 5 t = outA (blkA V c 0 t) (supOf V c) (blkA V c 3 t) (blkA V c 4 t) := by dsimp only [datA]
theorem datA_before0 (c : Dev nD) (t : Fin cfg0.N) (d) : (datA V c).before 0 t d = blkA V c 0 t :=
  foundA0_of V (datA V c) (datA_A V c 0) (datA_after0 V c) t d
theorem datA_before1 (c : Dev nD) (t : Fin cfg0.N) (d) : (datA V c).before 1 t d = blkA V c 1 t :=
  foundA1_of V (datA V c) (datA_A V c 1) (datA_after1 V c) t d
theorem datA_before2 (c : Dev nD) (t : Fin cfg0.N) (d) : (datA V c).before 2 t d = blkA V c 2 t :=
  foundA2_of V (datA V c) (datA_A V c 2) (datA_after2 V c) t d
theorem datA_before3 (c : Dev nD) (t : Fin cfg0.N) (d) : (datA V c).before 3 t d = blkA V c 3 t :=
  foundA3_of V (datA V c) (datA_A V c 3) (datA_after3 V c) t d
theorem datA_before4 (c : Dev nD) (t : Fin cfg0.N) (d) : (datA V c).before 4 t d = blkA V c 4 t :=
  foundA4_of V (datA V c) (datA_A V c 4) (datA_after4 V c) t d

theorem datA_Phi_castSucc (c : Dev nD) (t : Fin cfg0.N) : (datA V c).Φ t.castSucc = PhiS V c t.val := by
  dsimp only [datA]; simp only [Fin.coe_castSucc]
theorem datA_Phi_succ (c : Dev nD) (t : Fin cfg0.N) : (datA V c).Φ t.succ = PhiS V c (t.val + 1) := rfl

def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d)))

def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t)
    ∗ owns (c : Thread nD τ) (st0_5 t) fullShare ((datA V c).after 5 t))

set_option maxHeartbeats 2000000 in
/-- The body at any point.  At the first point the invariant hands over the scratch at anything and takes it back at the
    support; at a later point it hands it over at the support and takes it back unchanged. -/
theorem soundA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1, datA_before2, datA_before3, datA_before4]
  rw [show (datA V c).owesAt () t.succ = (datA V c).owesAt () t.castSucc from rfl,
    datA_Phi_succ, datA_Phi_castSucc, PhiS_pos V c (t.val + 1) (Nat.succ_ne_zero _),
    datA_after0, datA_after1, datA_after2, datA_after3, datA_after4, datA_after5]
  by_cases hz : t.val = 0
  · obtain rfl : t = pt0 := Fin.ext hz
    rw [show PhiS V c (pt0 : Fin cfg0.N).val = Pipeline.ΦA spec0 c from rfl, PhiA_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (runA_first c Set.univ (grid0.coords pt0) ((isFirst_iff pt0).mpr rfl) _ _ _ _ _ _ _ _ _ _ _ _ _ _
      (blkA V c 0 pt0) (blkA V c 1 pt0) (blkA V c 2 pt0) (blkA V c 3 pt0) (blkA V c 4 pt0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c t.val hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (runA_later c Set.univ (grid0.coords t) (fun h => hz ((isFirst_iff t).mp h)) _ _ _ _ _ _ _ _ _ _ _ _ _ _
      (blkA V c 0 t) (blkA V c 1 t) (blkA V c 2 t) (blkA V c 3 t) (blkA V c 4 t) (supOf V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation of the first pass, at every point. -/
theorem obligationA (c : Dev nD) : BodyObligation (datA (F := F) V c) (defs₀ (F := F)) Variants.none () Set.univ := fun t => by
  rw [bigSep_W0, bigSep_W0]
  exact soundA V c t

/-- What the region hands the pass is the invariant before the first point. -/
theorem hinA (c : Dev nD) : Pipeline.ΦA spec0 c ⊢ (datA V c).Φ 0 := by
  rw [show (datA V c).Φ 0 = Pipeline.ΦA spec0 c from rfl]

/-- After the last point the invariant gives the scratch back at some contents. -/
theorem houtA (c : Dev nD) : (datA V c).Φ (Fin.last cfg0.N) ⊢ Pipeline.ΦA spec0 c := by
  rw [show (datA V c).Φ (Fin.last cfg0.N) = PhiS V c (Fin.last cfg0.N).val from rfl,
    PhiS_pos V c _ (by rw [Fin.val_last]; have : cfg0.N = 25 := N_0; omega), PhiA_eq]
  iintro ⟨⟨HS, Hrest⟩, Hg⟩
  isplitl [HS Hrest]
  · isplitl [HS]; · iexists _; iexact HS
    iexact Hrest
  iexact Hg

end First

end Cert.KernelIdeal.Hand

end
-- ==== Proof.SecondPassIdeal.lean ====
/-
  The second pass, one grid point at a time.  At point `t` the body reads rows `400 t … 400 t + 399` of the
  adjacency matrix, the whole second-layer support (a 10000 × 7 matrix) and the bias row, and leaves in the
  output block the product of the adjacency rows with the support, plus the bias on every row.  Nothing is
  kept between points, so the invariant is only "the scratch buffers and the generator register are somewhere".
-/
import proofs.«116573_g28578712387911_cont_9to1_884_2_alg».proof.Proof.Gen.KernelIdeal.Launch
import proofs.«116573_g28578712387911_cont_9to1_884_2_alg».proof.Proof.Gen.KernelIdeal.Skeleton
import proofs.«116573_g28578712387911_cont_9to1_884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Second
variable (V : (c : Dev nD) → (b : Ref sig .tc) → Buf (Elt F) ((c : Thread nD τ).loc b))

/-- Block `t` of window `w` of the second pass, read off the array as the pass finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched there
    (an unfetched block has not moved). -/
theorem foundB0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem foundB1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)
theorem foundB2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- The whole-buffer rectangles the body loads and stores through. -/
abbrev rB_adj : Rect S400x10000 := Rect.unit (s := S400x10000) ![0, 0] S400x10000.size inb_S400x10000_S400x10000_0_0
abbrev rB_sup : Rect S10000x7 := Rect.unit (s := S10000x7) ![0, 0] S10000x7.size inb_S10000x7_S10000x7_0_0
abbrev rB_bias : Rect S1x7 := Rect.unit (s := S1x7) ![0, 0] S1x7.size inb_S1x7_S1x7_0_0
abbrev rB_out : Rect S400x7 := Rect.unit (s := S400x7) ![0, 0] S400x7.size inb_S400x7_S400x7_0_0

/-- What the body leaves in the output block: its one store, of the adjacency rows times the support plus the bias. -/
def outB (x0 : Vec F S400x10000 .f32) (x1 : Vec F S10000x7 .f32) (x2 : Vec F S1x7 .f32) : Vec F S400x7 .f32 :=
  View.canon [⟨rB_out, k1_pay1 (View.ld x0 rB_adj) (View.ld x1 rB_sup) (View.ld x2 rB_bias)⟩]

/-- The one store covers the output block. -/
theorem coverB (p0 : Vec F S400x7 .f32) (y : S400x7.Idx) :
    ∃ pc ∈ ([⟨rB_out, p0⟩] : List (View.Piece (Elt F) S400x7 .f32)), y ∈ pc.1.set :=
  View.cover_of_tiled [⟨rB_out, p0⟩] S400x7.size (by rfl) y

set_option maxHeartbeats 1000000 in
/-- The body on whole staging buffers: the three inputs are read and left as they were, the output block ends at `outB`. -/
theorem runB (c : Dev nD) (E : Set ℕ) (i : grid1.Coords) (arg1 : Memref sig .tc .vmem S400x10000 .f32) (harg1 : arg1.IsWhole) (arg2 : Memref sig .tc .vmem S10000x7 .f32) (harg2 : arg2.IsWhole) (arg3 : Memref sig .tc .vmem S1x7 .f32) (harg3 : arg3.IsWhole) (arg4 : Memref sig .tc .vmem S400x7 .f32) (harg4 : arg4.IsWhole)
    (x0 : Vec F S400x10000 .f32) (x1 : Vec F S10000x7 .f32) (x2 : Vec F S1x7 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outB x0 x1 x2)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-- The proof data of the second pass: the arrays as the pass finds them; each input's buffer at its block and the
    output's at `outB` of the input blocks; nothing owed, full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => outB (blkB V c 0 t) (blkB V c 1 t) (blkB V c 2 t)
  Φ _ := Pipeline.ΦA spec1 c
  q _ := fullShare
  owed _ := 0

theorem datB_A (c : Dev nD) (w : Fin cfg1.W) : (datB V c).A w = V c (Pipeline.arrRef spec1 w) := by
  dsimp only [datB]
theorem datB_after0 (c : Dev nD) (t : Fin cfg1.N) : (datB V c).after 0 t = blkB V c 0 t := by dsimp only [datB]
theorem datB_after1 (c : Dev nD) (t : Fin cfg1.N) : (datB V c).after 1 t = blkB V c 1 t := by dsimp only [datB]
theorem datB_after2 (c : Dev nD) (t : Fin cfg1.N) : (datB V c).after 2 t = blkB V c 2 t := by dsimp only [datB]
theorem datB_after3 (c : Dev nD) (t : Fin cfg1.N) : (datB V c).after 3 t = outB (blkB V c 0 t) (blkB V c 1 t) (blkB V c 2 t) := by dsimp only [datB]

theorem datB_before0 (c : Dev nD) (t : Fin cfg1.N) (d) : (datB V c).before 0 t d = blkB V c 0 t :=
  foundB0_of V (datB V c) (datB_A V c 0) (datB_after0 V c) t d
theorem datB_before1 (c : Dev nD) (t : Fin cfg1.N) (d) : (datB V c).before 1 t d = blkB V c 1 t :=
  foundB1_of V (datB V c) (datB_A V c 1) (datB_after1 V c) t d
theorem datB_before2 (c : Dev nD) (t : Fin cfg1.N) (d) : (datB V c).before 2 t d = blkB V c 2 t :=
  foundB2_of V (datB V c) (datB_A V c 2) (datB_after2 V c) t d

def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d)))

def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t))

theorem soundB (c : Dev nD) (t : Fin cfg1.N) :
    preB V c t ⊢ wp frame (wpE (defs₀ (F := F)) Variants.none c none) Set.univ (bodyAt1 t) (fun _ => postB V c t) := by
  unfold preB postB bodyAt1
  simp only [datB_before0, datB_before1, datB_before2]
  rw [show (datB V c).Φ t.succ = (datB V c).Φ t.castSucc from rfl,
    show (datB V c).owesAt () t.succ = (datB V c).owesAt () t.castSucc from rfl,
    datB_after0, datB_after1, datB_after2, datB_after3]
  iintro ⟨HΦ, Ho, ⟨%d0, H0⟩, ⟨%d1, H1⟩, ⟨%d2, H2⟩, ⟨%d3, H3⟩⟩
  iapply (runB c Set.univ _ _ _ _ _ _ _ _ _ (blkB V c 0 t) (blkB V c 1 t) (blkB V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second pass, at every point. -/
theorem obligationB (c : Dev nD) : BodyObligation (datB (F := F) V c) (defs₀ (F := F)) Variants.none () Set.univ := fun t => by
  rw [bigSep_W1, bigSep_W1]
  exact soundB V c t

end Second

end Cert.KernelIdeal.Hand

end
-- ==== Proof.RunIdeal.lean ====
/-
  The whole program: two reshapes of the bias vectors, the first pass, the second pass.  The contents of every
  buffer that outlives a pass are followed from the launch to the end: the reshapes write the two bias rows; the
  first pass writes only the second-layer support (its output array, block by block); the second pass writes only the
  result.  So each argument ends as launched, and the result array ends at what the second pass's 25 write-backs
  leave, computed from the arrays as the second pass finds them.
-/
import proofs.«116573_g28578712387911_cont_9to1_884_2_alg».proof.Proof.FirstPassIdeal
import proofs.«116573_g28578712387911_cont_9to1_884_2_alg».proof.Proof.SecondPassIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev memLaunch : Dev nD → Valuation τ sig (Elt F) := fun c b => m (c, b)
/-- After the two reshapes: what the first pass finds. -/
abbrev memA : Dev nD → Valuation τ sig (Elt F) := fun c => StableHlo.after hostOps0 (memLaunch m c)
abbrev inA : (c : Dev nD) → (b : Ref sig .tc) → Buf (Elt F) ((c : Thread nD τ).loc b) := fun c b => memA m c b

/-- The reshapes write only the two bias rows. -/
theorem memA_of_ne (c : Dev nD) (b : Ref sig .tc) (h0 : b ≠ main_v0) (h1 : b ≠ main_v1) :
    memA m c (Proc.devRef .tc b) = memLaunch m c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- After the first pass: its arrays at what its write-backs leave, every other buffer as the pass found it. -/
def memB (c : Dev nD) : Valuation τ sig (Elt F) :=
  Pipeline.withArrays spec0 c (memA m c) fun w => (datA (inA m) c).arrAt w cfg0.N
theorem memB_arr (c : Dev nD) (w : Fin cfg0.W) :
    memB m c (Proc.devRef .tc (Pipeline.arrRef spec0 w)) = (datA (inA m) c).arrAt w cfg0.N := by
  unfold memB; exact Pipeline.withArrays_arr spec0 launch0.win.arr_inj c _ _ w
theorem memB_of_ne (c : Dev nD) (b : Ref sig .tc) (hb : ∀ w, Pipeline.arrRef spec0 w ≠ b) :
    memB m c (Proc.devRef .tc b) = memA m c (Proc.devRef .tc b) := by
  unfold memB; exact Pipeline.withArrays_of_ne spec0 c _ _ b hb
abbrev inB : (c : Dev nD) → (b : Ref sig .tc) → Buf (Elt F) ((c : Thread nD τ).loc b) := fun c b => memB m c b
theorem leftA (c : Dev nD) (w : Fin cfg0.W) : (datA (inA m) c).arrAt w cfg0.N = inB m c (Pipeline.arrRef spec0 w) :=
  (memB_arr m c w).symm
theorem keptA (c : Dev nD) : ∀ b, b ∉ Finset.univ.image (Pipeline.arrRef spec0) → inB m c b = inA m c b :=
  fun b hb => memB_of_ne m c b fun w e => hb (Finset.mem_image.mpr ⟨w, Finset.mem_univ _, e⟩)

/-- After the second pass: the end. -/
def memEnd (c : Dev nD) : Valuation τ sig (Elt F) :=
  Pipeline.withArrays spec1 c (memB m c) fun w => (datB (inB m) c).arrAt w cfg1.N
theorem memEnd_arr (c : Dev nD) (w : Fin cfg1.W) :
    memEnd m c (Proc.devRef .tc (Pipeline.arrRef spec1 w)) = (datB (inB m) c).arrAt w cfg1.N := by
  unfold memEnd; exact Pipeline.withArrays_arr spec1 launch1.win.arr_inj c _ _ w
theorem memEnd_of_ne (c : Dev nD) (b : Ref sig .tc) (hb : ∀ w, Pipeline.arrRef spec1 w ≠ b) :
    memEnd m c (Proc.devRef .tc b) = memB m c (Proc.devRef .tc b) := by
  unfold memEnd; exact Pipeline.withArrays_of_ne spec1 c _ _ b hb
abbrev atEnd : (c : Dev nD) → (b : Ref sig .tc) → Buf (Elt F) ((c : Thread nD τ).loc b) := fun c b => memEnd m c b
theorem leftB (c : Dev nD) (w : Fin cfg1.W) : (datB (inB m) c).arrAt w cfg1.N = atEnd m c (Pipeline.arrRef spec1 w) :=
  (memEnd_arr m c w).symm
theorem keptB (c : Dev nD) : ∀ b, b ∉ Finset.univ.image (Pipeline.arrRef spec1) → atEnd m c b = inB m c b :=
  fun b hb => memEnd_of_ne m c b fun w e => hb (Finset.mem_image.mpr ⟨w, Finset.mem_univ _, e⟩)

/-! ## The arguments end as launched -/

/-- `main_arg0` ends as launched: neither reshape writes it, and a pass only reads it or passes it by. -/
theorem memEnd_main_arg0 (c : Dev nD) : memEnd m c (Proc.devRef .tc main_arg0) = m ((c : Thread nD τ).loc main_arg0) :=
  calc memEnd m c (Proc.devRef .tc main_arg0)
    _ = memB m c (Proc.devRef .tc main_arg0) := (memEnd_arr m c 0).trans (((datB (inB m) c).arrAt_in 0 rfl _).trans (datB_A (inB m) c 0))
    _ = memA m c (Proc.devRef .tc main_arg0) := (memB_arr m c 0).trans (((datA (inA m) c).arrAt_in 0 rfl _).trans (datA_A (inA m) c 0))
    _ = memLaunch m c (Proc.devRef .tc main_arg0) := memA_of_ne m c main_arg0 (by decide) (by decide)
    _ = m ((c : Thread nD τ).loc main_arg0) := rfl
/-- `main_arg1` ends as launched: neither reshape writes it, and a pass only reads it or passes it by. -/
theorem memEnd_main_arg1 (c : Dev nD) : memEnd m c (Proc.devRef .tc main_arg1) = m ((c : Thread nD τ).loc main_arg1) :=
  calc memEnd m c (Proc.devRef .tc main_arg1)
    _ = memB m c (Proc.devRef .tc main_arg1) := memEnd_of_ne m c main_arg1 (by decide)
    _ = memA m c (Proc.devRef .tc main_arg1) := (memB_arr m c 1).trans (((datA (inA m) c).arrAt_in 1 rfl _).trans (datA_A (inA m) c 1))
    _ = memLaunch m c (Proc.devRef .tc main_arg1) := memA_of_ne m c main_arg1 (by decide) (by decide)
    _ = m ((c : Thread nD τ).loc main_arg1) := rfl
/-- `main_arg2` ends as launched: neither reshape writes it, and a pass only reads it or passes it by. -/
theorem memEnd_main_arg2 (c : Dev nD) : memEnd m c (Proc.devRef .tc main_arg2) = m ((c : Thread nD τ).loc main_arg2) :=
  calc memEnd m c (Proc.devRef .tc main_arg2)
    _ = memB m c (Proc.devRef .tc main_arg2) := memEnd_of_ne m c main_arg2 (by decide)
    _ = memA m c (Proc.devRef .tc main_arg2) := (memB_arr m c 2).trans (((datA (inA m) c).arrAt_in 2 rfl _).trans (datA_A (inA m) c 2))
    _ = memLaunch m c (Proc.devRef .tc main_arg2) := memA_of_ne m c main_arg2 (by decide) (by decide)
    _ = m ((c : Thread nD τ).loc main_arg2) := rfl
/-- `main_arg3` ends as launched: neither reshape writes it, and a pass only reads it or passes it by. -/
theorem memEnd_main_arg3 (c : Dev nD) : memEnd m c (Proc.devRef .tc main_arg3) = m ((c : Thread nD τ).loc main_arg3) :=
  calc memEnd m c (Proc.devRef .tc main_arg3)
    _ = memB m c (Proc.devRef .tc main_arg3) := memEnd_of_ne m c main_arg3 (by decide)
    _ = memA m c (Proc.devRef .tc main_arg3) := memB_of_ne m c main_arg3 (by decide)
    _ = memLaunch m c (Proc.devRef .tc main_arg3) := memA_of_ne m c main_arg3 (by decide) (by decide)
    _ = m ((c : Thread nD τ).loc main_arg3) := rfl
/-- `main_arg4` ends as launched: neither reshape writes it, and a pass only reads it or passes it by. -/
theorem memEnd_main_arg4 (c : Dev nD) : memEnd m c (Proc.devRef .tc main_arg4) = m ((c : Thread nD τ).loc main_arg4) :=
  calc memEnd m c (Proc.devRef .tc main_arg4)
    _ = memB m c (Proc.devRef .tc main_arg4) := memEnd_of_ne m c main_arg4 (by decide)
    _ = memA m c (Proc.devRef .tc main_arg4) := (memB_arr m c 4).trans (((datA (inA m) c).arrAt_in 4 rfl _).trans (datA_A (inA m) c 4))
    _ = memLaunch m c (Proc.devRef .tc main_arg4) := memA_of_ne m c main_arg4 (by decide) (by decide)
    _ = m ((c : Thread nD τ).loc main_arg4) := rfl
/-- `main_arg5` ends as launched: neither reshape writes it, and a pass only reads it or passes it by. -/
theorem memEnd_main_arg5 (c : Dev nD) : memEnd m c (Proc.devRef .tc main_arg5) = m ((c : Thread nD τ).loc main_arg5) :=
  calc memEnd m c (Proc.devRef .tc main_arg5)
    _ = memB m c (Proc.devRef .tc main_arg5) := memEnd_of_ne m c main_arg5 (by decide)
    _ = memA m c (Proc.devRef .tc main_arg5) := memB_of_ne m c main_arg5 (by decide)
    _ = memLaunch m c (Proc.devRef .tc main_arg5) := memA_of_ne m c main_arg5 (by decide) (by decide)
    _ = m ((c : Thread nD τ).loc main_arg5) := rfl

/-! ## The proof data of both passes and the state between segments -/

abbrev adm : (p : Fin 2) → (pcfgs (F := F) p).Adm := fun p => (cfgs p).toPCfg_adm
/-- Both passes' proof data, each at the contents its pass finds. -/
def pdats : (p : Fin 2) → (c : Dev nD) → Dat τ (Elt F) Unit ℕ (UR sig nD τ) ℕ (Pipeline.pin (pcfgs (F := F)) adm p) c
  | ⟨0, _⟩ => fun c => datA (inA m) c
  | ⟨1, _⟩ => fun c => datB (inB m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (memEnd m c) ∗ ∃ r, prngReg c r)

/-! ## The two passes as segments -/

set_option backward.isDefEq.respectTransparency.types false in
def regA : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationA (inA m) c).loose
  hwaits := Pipeline.hwaits_of_owed_zero _ _ _ _ L lv 0 fun _ _ => rfl
  pre c := iprop(StableHlo.held (c : Thread nD τ) (Pipeline.ucRefs τ sig) (memA m c) ∗ R c)
  post c := iprop(StableHlo.held (c : Thread nD τ) (Pipeline.ucRefs τ sig) (memB m c) ∗ R c)
  X c := iprop(∃ r, prngReg c r)
  Y c := iprop(∃ r, prngReg c r)
  Z c := Pipeline.unscopedRest (Ix := Unit) (Name := ℕ) (U := UR sig nD τ) (Lvl := ℕ) spec0 c (inA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (inA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (datA (inA m) c).Φ (Fin.last cfg0.N) from rfl]
    have hgive := houtA (inA m) c
    unfold Pipeline.ΦA at hgive
    have hsort : iprop(Pipeline.scopedRest (Ix := Unit) (Name := ℕ) (U := UR sig nD τ) (Lvl := ℕ) (Val := Elt F) spec0 c ∗ ∃ r, prngReg c r)
        ⊢ (iprop((∃ r, prngReg c r) ∗ BI.emp ∗ Pipeline.scopedRest (Ix := Unit) (Name := ℕ) (U := UR sig nD τ) (Lvl := ℕ) (Val := Elt F) spec0 c) : sProp 𝕄) := by
      iintro ⟨Hr, Hp⟩
      isplitl [Hp]; · iexact Hp
      isplitr; · iempintro
      iexact Hr
    exact hgive.trans hsort
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (inA m c) (inB m c) ((pdats m 0 c).arrAt · cfg0.N) (leftA m c) (keptA m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regB : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationB (inB m) c).loose
  hwaits := Pipeline.hwaits_of_owed_zero _ _ _ _ L lv 1 fun _ _ => rfl
  pre c := iprop(StableHlo.held (c : Thread nD τ) (Pipeline.ucRefs τ sig) (memB m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (inB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (inB m c) (atEnd m c) ((pdats m 1 c).arrAt · cfg1.N) (leftB m c) (keptB m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (memLaunch m)),
    .region (regA m),
    .region (regB m) ]
theorem main_run (c : Dev nD) : main (F := F) c = Pipeline.Seg.run (segs m) := (main_chain c).trans (by chain_rfl)

set_option backward.isDefEq.respectTransparency.types false in
/-- From any memory with zero counters every weakly fair execution of the program terminates without a fault; the result
    array ends at what the second pass's write-backs leave and every argument array ends as launched. -/
theorem run : θ_run defs (onTc (τ := τ) (main (F := F))) ⟨m, fun _ => 0, ρ⟩ (fun r => ∀ c : Dev nD,
      r.2.mem ((c.tc : Thread nD τ).loc main_v3) = (datB (inB m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m c b)
    (hfin := fun c s' => by
      iintro ⟨⟨Hh, -⟩, HSI⟩
      unfold StableHlo.held
      imodintro
      iapply (pointsTo_read_all (Pipeline.ucRefs τ sig) (fun b => (((c : Thread nD τ)).1, b)) (memEnd m c) s')
      isplitl [Hh] <;> iassumption)
    (hQ := fun s h c =>
      ⟨(h c _ (mem_uc main_v3 (by decide))).trans (memEnd_arr m c 3),
       (h c _ (mem_uc main_arg0 (by decide))).trans (memEnd_main_arg0 m c),
       (h c _ (mem_uc main_arg1 (by decide))).trans (memEnd_main_arg1 m c),
       (h c _ (mem_uc main_arg2 (by decide))).trans (memEnd_main_arg2 m c),
       (h c _ (mem_uc main_arg3 (by decide))).trans (memEnd_main_arg3 m c),
       (h c _ (mem_uc main_arg4 (by decide))).trans (memEnd_main_arg4 m c),
       (h c _ (mem_uc main_arg5 (by decide))).trans (memEnd_main_arg5 m c)⟩)

end Cert.KernelIdeal.Hand

end
-- ==== Proof.Frames.lean ====
/-
  The three frame claims.  Each program's run, proved elsewhere, ends with every argument array as launched; the frame
  claim is that run with the statement about the result dropped.
-/
import proofs.«116573_g28578712387911_cont_9to1_884_2_alg».proof.Defs
import proofs.«116573_g28578712387911_cont_9to1_884_2_alg».proof.Proof.Gen.Kernel
import proofs.«116573_g28578712387911_cont_9to1_884_2_alg».proof.Proof.Gen.KernelIdeal
import proofs.«116573_g28578712387911_cont_9to1_884_2_alg».proof.Proof.Gen.ReferenceIdeal
import proofs.«116573_g28578712387911_cont_9to1_884_2_alg».proof.Proof.Gen.Pre_finite_inputs
import proofs.«116573_g28578712387911_cont_9to1_884_2_alg».proof.Proof.Gen.ReferenceIdeal.Run
import proofs.«116573_g28578712387911_cont_9to1_884_2_alg».proof.Proof.Run
import proofs.«116573_g28578712387911_cont_9to1_884_2_alg».proof.Proof.RunIdeal

noncomputable section

open Idealize.ShloMosaic Idealize.ShloMosaic.TcCoe Idealize.SL.Sem

namespace Cert.Proof.Claims

/-- The kernel as printed, at the word level: it runs to the end and leaves its arguments alone. -/
theorem frame_k : Cert.frame_Kernel := fun m ρ _ =>
  (θ_run Cert.Kernel.defs _ _).mono (fun _ h c => (h c).2) (Cert.Kernel.Hand.run (F := Bits) m ρ)

/-- The idealized kernel, over the extended reals: the same. -/
theorem frame_ki : Cert.frame_KernelIdeal := fun m ρ _ =>
  (θ_run Cert.KernelIdeal.defs _ _).mono (fun _ h c => (h c).2) (Cert.KernelIdeal.Hand.run (F := Ideal) m ρ)

/-- The idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Claims

end
-- ==== Proof.PayloadsIdeal.lean ====
/-
  The three pure values the two tiled passes store, read at an index, at the extended reals.

  The first pass keeps S₁ = X · W₁ (computed once) and then, for a block of 400 rows of the adjacency matrix A,
  stores the block of S₂ = max (A · S₁ + b₁, 0) · W₂; the second pass stores, for a block of 400 rows of A,
  the block of L = A · S₂ + b₂.  Each of the four matrix products accumulates into the zero matrix, so at an entry
  it is the plain sum over the contracted index; the bias is one row repeated down the block; the clamp is the
  maximum with zero.
-/
import proofs.«116573_g28578712387911_cont_9to1_884_2_alg».proof.Proof.Gen.KernelIdeal.Skeleton
import proofs.«116573_g28578712387911_cont_9to1_884_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Cert.TwoLayer Idealize.ShloMosaic Idealize.ShloMosaic.ValueIdx

/-! ## X · W₁ : 10000 × 128 by 128 × 16 -/

/-- The left operand's row coordinate is the result's row … -/
theorem lhs_xw_0 (i : S10000x16.Idx) (c : dot_S10000x128_S128x16_S10000x16_1_0_0_1_n_n.contr.Idx) :
    (dot_S10000x128_S128x16_S10000x16_1_0_0_1_n_n.lhsIdx i c 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl
/-- … and the right operand's column coordinate is the result's column. -/
theorem rhs_xw_1 (i : S10000x16.Idx) (c : dot_S10000x128_S128x16_S10000x16_1_0_0_1_n_n.contr.Idx) :
    (dot_S10000x128_S128x16_S10000x16_1_0_0_1_n_n.rhsIdx i c 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- The product accumulated into zero, at row `p` and column `q`: the sum over the 128 contracted positions. -/
theorem matmul_xw (l : FVec Ideal S10000x128 .f32) (r : FVec Ideal S128x16 .f32) (p : Fin 10000) (q : Fin 16) :
    matmul (F := Ideal) dot_S10000x128_S128x16_S10000x16_1_0_0_1_n_n none l r (constant S10000x16 .f32 0x00000000#32) (ix2 p q)
      = ∑ k : Fin 128, l (ix2 p k) * r (ix2 k q) := by
  refine (Ideal.matmul_constant_zero_apply dot_S10000x128_S128x16_S10000x16_1_0_0_1_n_n none l r (ix2 p q)).trans ?_
  rw [← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q)
      ((contrEquiv1 dot_S10000x128_S128x16_S10000x16_1_0_0_1_n_n 128 rfl rfl).symm k) = ix2 p k := funext fun a => Fin.ext (by
    match a with
    | ⟨0, _⟩ => exact lhs_xw_0 _ _
    | ⟨1, _⟩ => exact (dot_S10000x128_S128x16_S10000x16_1_0_0_1_n_n.lhsIdx_val_of_single rfl _ _).trans hk)
  have er : dot_S10000x128_S128x16_S10000x16_1_0_0_1_n_n.rhsIdx (ix2 p q)
      ((contrEquiv1 dot_S10000x128_S128x16_S10000x16_1_0_0_1_n_n 128 rfl rfl).symm k) = ix2 k q := funext fun a => Fin.ext (by
    match a with
    | ⟨0, _⟩ => exact (dot_S10000x128_S128x16_S10000x16_1_0_0_1_n_n.rhsIdx_val_of_single rfl _ _).trans hk
    | ⟨1, _⟩ => exact rhs_xw_1 _ _)
  rw [el, er]

/-- The value the first pass keeps is the first-layer support S₁ = X · W₁. -/
theorem pay_support1 (x1 : Vec Ideal S10000x128 .f32) (x2 : Vec Ideal S128x16 .f32) :
    k0_pay1 (F := Ideal) x1 x2 = support1 x1 x2 := by
  funext j
  obtain ⟨p, q, rfl⟩ : ∃ (p : Fin 10000) (q : Fin 16), j = ix2 p q := ⟨j 0, j 1, eq_ix2 j⟩
  unfold k0_pay1
  show shapeCast S10000x16 (matmul (F := Ideal) dot_S10000x128_S128x16_S10000x16_1_0_0_1_n_n none x1 x2
    (constant S10000x16 .f32 0x00000000#32)) shapeCasts_S10000x16_S10000x16 (ix2 p q) = _
  rw [shapeCast_self]
  exact matmul_xw x1 x2 p q

/-! ## A · S₁ : a block of 400 rows of A, 400 × 10000 by 10000 × 16 -/

/-- The left operand's row coordinate is the result's row … -/
theorem lhs_as1_0 (i : S400x16.Idx) (c : dot_S400x10000_S10000x16_S400x16_1_0_0_1_n_n.contr.Idx) :
    (dot_S400x10000_S10000x16_S400x16_1_0_0_1_n_n.lhsIdx i c 0).val = (i 0).val := by
  unfold DotDims.lhsIdx
  rw [dif_neg (show ¬(0 : Fin S400x10000.rank) ∈ dot_S400x10000_S10000x16_S400x16_1_0_0_1_n_n.lhsBatch by decide),
    dif_pos (show (0 : Fin S400x10000.rank) ∈ dot_S400x10000_S10000x16_S400x16_1_0_0_1_n_n.lhsNonContracting by decide)]
  rfl
/-- … and the right operand's column coordinate is the result's column. -/
theorem rhs_as1_1 (i : S400x16.Idx) (c : dot_S400x10000_S10000x16_S400x16_1_0_0_1_n_n.contr.Idx) :
    (dot_S400x10000_S10000x16_S400x16_1_0_0_1_n_n.rhsIdx i c 1).val = (i 1).val := by
  unfold DotDims.rhsIdx
  rw [dif_neg (show ¬(1 : Fin S10000x16.rank) ∈ dot_S400x10000_S10000x16_S400x16_1_0_0_1_n_n.rhsBatch by decide),
    dif_pos (show (1 : Fin S10000x16.rank) ∈ dot_S400x10000_S10000x16_S400x16_1_0_0_1_n_n.rhsNonContracting by decide)]
  rfl

/-- The product accumulated into zero, at row `p` and column `q`: the sum over the 10000 contracted positions. -/
theorem matmul_as1 (l : FVec Ideal S400x10000 .f32) (r : FVec Ideal S10000x16 .f32) (p : Fin 400) (q : Fin 16) :
    matmul (F := Ideal) dot_S400x10000_S10000x16_S400x16_1_0_0_1_n_n none l r (constant S400x16 .f32 0x00000000#32) (ix2 p q)
      = ∑ k : Fin 10000, l (ix2 p k) * r (ix2 k q) := by
  refine (Ideal.matmul_constant_zero_apply dot_S400x10000_S10000x16_S400x16_1_0_0_1_n_n none l r (ix2 p q)).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p q)
      ((contrEquiv1 dot_S400x10000_S10000x16_S400x16_1_0_0_1_n_n 10000 rfl rfl).symm k) = ix2 p k := funext fun a => Fin.ext (by
    match a with
    | ⟨0, _⟩ => exact lhs_as1_0 _ _
    | ⟨1, _⟩ => exact (dot_S400x10000_S10000x16_S400x16_1_0_0_1_n_n.lhsIdx_val_of_single rfl _ _).trans hk)
  have er : dot_S400x10000_S10000x16_S400x16_1_0_0_1_n_n.rhsIdx (ix2 p q)
      ((contrEquiv1 dot_S400x10000_S10000x16_S400x16_1_0_0_1_n_n 10000 rfl rfl).symm k) = ix2 k q := funext fun a => Fin.ext (by
    match a with
    | ⟨0, _⟩ => exact (dot_S400x10000_S10000x16_S400x16_1_0_0_1_n_n.rhsIdx_val_of_single rfl _ _).trans hk
    | ⟨1, _⟩ => exact rhs_as1_1 _ _)
  rw [el, er]

/-! ## H · W₂ : a block of 400 hidden rows, 400 × 16 by 16 × 7 -/

/-- The left operand's row coordinate is the result's row … -/
theorem lhs_hw_0 (i : S400x7.Idx) (c : dot_S400x16_S16x7_S400x7_1_0_0_1_n_n.contr.Idx) :
    (dot_S400x16_S16x7_S400x7_1_0_0_1_n_n.lhsIdx i c 0).val = (i 0).val := by
  unfold DotDims.lhsIdx
  rw [dif_neg (show ¬(0 : Fin S400x16.rank) ∈ dot_S400x16_S16x7_S400x7_1_0_0_1_n_n.lhsBatch by decide),
    dif_pos (show (0 : Fin S400x16.rank) ∈ dot_S400x16_S16x7_S400x7_1_0_0_1_n_n.lhsNonContracting by decide)]
  rfl
/-- … and the right operand's column coordinate is the result's column. -/
theorem rhs_hw_1 (i : S400x7.Idx) (c : dot_S400x16_S16x7_S400x7_1_0_0_1_n_n.contr.Idx) :
    (dot_S400x16_S16x7_S400x7_1_0_0_1_n_n.rhsIdx i c 1).val = (i 1).val := by
  unfold DotDims.rhsIdx
  rw [dif_neg (show ¬(1 : Fin S16x7.rank) ∈ dot_S400x16_S16x7_S400x7_1_0_0_1_n_n.rhsBatch by decide),
    dif_pos (show (1 : Fin S16x7.rank) ∈ dot_S400x16_S16x7_S400x7_1_0_0_1_n_n.rhsNonContracting by decide)]
  rfl

/-- The product accumulated into zero, at row `p` and column `q`: the sum over the 16 contracted positions. -/
theorem matmul_hw (l : FVec Ideal S400x16 .f32) (r : FVec Ideal S16x7 .f32) (p : Fin 400) (q : Fin 7) :
    matmul (F := Ideal) dot_S400x16_S16x7_S400x7_1_0_0_1_n_n none l r (constant S400x7 .f32 0x00000000#32) (ix2 p q)
      = ∑ k : Fin 16, l (ix2 p k) * r (ix2 k q) := by
  refine (Ideal.matmul_constant_zero_apply dot_S400x16_S16x7_S400x7_1_0_0_1_n_n none l r (ix2 p q)).trans ?_
  rw [← Equiv.sum_comp (contrEquiv1 dot_S400x16_S16x7_S400x7_1_0_0_1_n_n 16 rfl rfl).symm]
  refine Finset.sum_congr rfl fun k _ => ?_
  have hk := contrEquiv1_symm_val dot_S400x16_S16x7_S400x7_1_0_0_1_n_n 16 rfl rfl k
  have el : dot_S400x16_S16x7_S400x7_1_0_0_1_n_n.lhsIdx (ix2 p q)
      ((contrEquiv1 dot_S400x16_S16x7_S400x7_1_0_0_1_n_n 16 rfl rfl).symm k) = ix2 p k := funext fun a => Fin.ext (by
    match a with
    | ⟨0, _⟩ => exact lhs_hw_0 _ _
    | ⟨1, _⟩ => exact (dot_S400x16_S16x7_S400x7_1_0_0_1_n_n.lhsIdx_val_of_single rfl _ _).trans hk)
  have er : dot_S400x16_S16x7_S400x7_1_0_0_1_n_n.rhsIdx (ix2 p q)
      ((contrEquiv1 dot_S400x16_S16x7_S400x7_1_0_0_1_n_n 16 rfl rfl).symm k) = ix2 k q := funext fun a => Fin.ext (by
    match a with
    | ⟨0, _⟩ => exact (dot_S400x16_S16x7_S400x7_1_0_0_1_n_n.rhsIdx_val_of_single rfl _ _).trans hk
    | ⟨1, _⟩ => exact rhs_hw_1 _ _)
  rw [el, er]

/-! ## A · S₂ : a block of 400 rows of A, 400 × 10000 by 10000 × 7 -/

/-- The left operand's row coordinate is the result's row … -/
theorem lhs_as2_0 (i : S400x7.Idx) (c : dot_S400x10000_S10000x7_S400x7_1_0_0_1_n_n.contr.Idx) :
    (dot_S400x10000_S10000x7_S400x7_1_0_0_1_n_n.lhsIdx i c 0).val = (i 0).val := by
  unfold DotDims.lhsIdx
  rw [dif_neg (show ¬(0 : Fin S400x10000.rank) ∈ dot_S400x10000_S10000x7_S400x7_1_0_0_1_n_n.lhsBatch by decide),
    dif_pos (show (0 : Fin S400x10000.rank) ∈ dot_S400x10000_S10000x7_S400x7_1_0_0_1_n_n.lhsNonContracting by decide)]
  rfl
/-- … and the right operand's column coordinate is the result's column. -/
theorem rhs_as2_1 (i : S400x7.Idx) (c : dot_S400x10000_S10000x7_S400x7_1_0_0_1_n_n.contr.Idx) :
    (dot_S400x10000_S10000x7_S400x7_1_0_0_1_n_n.rhsIdx i c 1).val = (i 1).val := by
  unfold DotDims.rhsIdx
  rw [dif_neg (show ¬(1 : Fin S10000x7.rank) ∈ dot_S400x10000_S10000x7_S400x7_1_0_0_1_n_n.rhsBatch by decide),
    dif_pos (show (1 : Fin S10000x7.rank) ∈ dot_S400x10000_S10000x7_S400x7_1_0_0_1_n_n.rhsNonContracting by decide)]
  rfl

/-- The product accumulated into zero, at row `p` and column `q`: the sum over the 10000 contracted positions. -/
theorem matmul_as2 (l : FVec Ideal S400x10000 .f32) (r : FVec Ideal S10000x7 .f32) (p : Fin 400) (q : Fin 7) :
    matmul (F := Ideal) dot_S400x10000_S10000x7_S400x7_1_0_0_1_n_n none l r (constant S400x7 .f32 0x00000000#32) (ix2 p q)
      = ∑ k : Fin 10000, l (ix2 p k) * r (ix2 k q) := by
  refine (Ideal.matmul_constant_zero_apply dot_S400x10000_S10000x7_S400x7_1_0_0_1_n_n none l r (ix2 p q)).trans ?_
  rw [← Equiv.sum_comp (contrEquiv1 dot_S400x10000_S10000x7_S400x7_1_0_0_1_n_n 10000 rfl rfl).symm]
  refine Finset.sum_congr rfl fun k _ => ?_
  have hk := contrEquiv1_symm_val dot_S400x10000_S10000x7_S400x7_1_0_0_1_n_n 10000 rfl rfl k
  have el : dot_S400x10000_S10000x7_S400x7_1_0_0_1_n_n.lhsIdx (ix2 p q)
      ((contrEquiv1 dot_S400x10000_S10000x7_S400x7_1_0_0_1_n_n 10000 rfl rfl).symm k) = ix2 p k := funext fun a => Fin.ext (by
    match a with
    | ⟨0, _⟩ => exact lhs_as2_0 _ _
    | ⟨1, _⟩ => exact (dot_S400x10000_S10000x7_S400x7_1_0_0_1_n_n.lhsIdx_val_of_single rfl _ _).trans hk)
  have er : dot_S400x10000_S10000x7_S400x7_1_0_0_1_n_n.rhsIdx (ix2 p q)
      ((contrEquiv1 dot_S400x10000_S10000x7_S400x7_1_0_0_1_n_n 10000 rfl rfl).symm k) = ix2 k q := funext fun a => Fin.ext (by
    match a with
    | ⟨0, _⟩ => exact (dot_S400x10000_S10000x7_S400x7_1_0_0_1_n_n.rhsIdx_val_of_single rfl _ _).trans hk
    | ⟨1, _⟩ => exact rhs_as2_1 _ _)
  rw [el, er]

/-! ## The two blocks the passes store -/

/-- One entry of the hidden block: the adjacency rows against the support, plus the bias row, clamped at zero. -/
theorem hidden_apply (x0 : FVec Ideal S400x10000 .f32) (s : FVec Ideal S10000x16 .f32) (x3 : FVec Ideal S1x16 .f32) (p : Fin 400) (k : Fin 16) :
    maximumf (F := Ideal)
        (addf (matmul (F := Ideal) dot_S400x10000_S10000x16_S400x16_1_0_0_1_n_n none x0 s (constant S400x16 .f32 0x00000000#32))
          (broadcastTo S400x16 (shapeCast S1x16 x3 shapeCasts_S1x16_S1x16) broadcasts_S1x16_S400x16))
        (broadcast S400x16 (Scalar.ofBits (F := Ideal) .f32 0x00000000#32)) (ix2 p k)
      = hiddenRow (fun k' => x0 (ix2 p k')) s (fun k => x3 (ix2 0 k)) k := by
  rw [maximumf_apply, addf_apply, matmul_as1, shapeCast_self, broadcastTo_1b_ab_apply, broadcast_apply]
  show max _ (Ideal.ofBits .f32 0x00000000#32) = _
  rw [Ideal.ofBits_zero_f32]
  rfl

/-- The block of the second-layer support the first pass stores, at row `p` and column `q`. -/
theorem pay_support2 (x0 : Vec Ideal S400x10000 .f32) (s : Vec Ideal S10000x16 .f32) (x3 : Vec Ideal S1x16 .f32) (x4 : Vec Ideal S16x7 .f32)
    (p : Fin 400) (q : Fin 7) :
    k0_pay2 (F := Ideal) x0 s x3 x4 (ix2 p q) = support2Row (fun k' => x0 (ix2 p k')) s (fun k => x3 (ix2 0 k)) x4 q := by
  unfold k0_pay2 support2Row
  refine (matmul_hw _ x4 p q).trans ?_
  refine Finset.sum_congr rfl fun k _ => ?_
  exact congrArg (· * x4 (ix2 k q)) (hidden_apply x0 s x3 p k)

/-- The block of the result the second pass stores, at row `p` and column `q`. -/
theorem pay_logits (x0 : Vec Ideal S400x10000 .f32) (x1 : Vec Ideal S10000x7 .f32) (x2 : Vec Ideal S1x7 .f32) (p : Fin 400) (q : Fin 7) :
    k1_pay1 (F := Ideal) x0 x1 x2 (ix2 p q) = logitRow (fun k' => x0 (ix2 p k')) x1 (fun q' => x2 (ix2 0 q')) q := by
  unfold k1_pay1 logitRow
  show addf (matmul (F := Ideal) (φ₁ := .f32) (φ₂ := .f32) dot_S400x10000_S10000x7_S400x7_1_0_0_1_n_n none x0
      (shapeCast S10000x7 x1 shapeCasts_S10000x7_S10000x7) (constant S400x7 .f32 0x00000000#32))
    (broadcastTo S400x7 (shapeCast S1x7 x2 shapeCasts_S1x7_S1x7) broadcasts_S1x7_S400x7) (ix2 p q) = _
  rw [addf_apply, matmul_as2, shapeCast_self, shapeCast_self, broadcastTo_1b_ab_apply]

end Cert.KernelIdeal.Payload

end
-- ==== Proof.ArraysIdeal.lean ====
/-
  From blocks to the array.  Each pass walks a grid of 25 points; at point `t` it writes back rows
  `400 t … 400 t + 399` of a 10000 × 7 array.  What a point writes depends only on the same rows of the adjacency
  matrix and on arrays that every point reads whole, so the 25 blocks are the restrictions of ONE function of the
  arrays the pass found: in the first pass the second-layer support S₂ = max (A · (X · W₁) + b₁, 0) · W₂, in the
  second the result L = A · S₂ + b₂.  Row `r` lies in the block of point `r / 400`, so the blocks cover the array and
  after the last write-back the array is that function.
-/
import proofs.«116573_g28578712387911_cont_9to1_884_2_alg».proof.Proof.FirstPassIdeal
import proofs.«116573_g28578712387911_cont_9to1_884_2_alg».proof.Proof.SecondPassIdeal
import proofs.«116573_g28578712387911_cont_9to1_884_2_alg».proof.Proof.PayloadsIdeal
import proofs.«116573_g28578712387911_cont_9to1_884_2_alg».proof.Proof.Spec
import Idealize.ShloMosaic.Lib.Pipeline.Value
import Idealize.ShloMosaic.Lib.ValueIdx

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Payload Cert.TwoLayer

variable (V : (c : Dev nD) → (b : Ref sig .tc) → Buf (Elt Ideal) ((c : Thread nD τ).loc b))

/-- The offsets of a whole-buffer rectangle are zero on both axes. -/
theorem zero_offsets : (![0, 0] : Fin 2 → Nat) = fun _ => 0 := funext fun a => by fin_cases a <;> rfl

/-! ## The second pass: the result array after its 25 write-backs -/

/-- The block indices of the second pass over its grid: the adjacency rows and the output move with the point, the
    support and the bias row stay at block (0, 0). -/
theorem idxB : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `400 n + p` of L = A · S₂ + b₂, from a block `x0` holding rows `400 n …` of A, the whole of S₂ and the bias row. -/
theorem logits_point (A : Mat 10000 10000) (s2 : Mat 10000 7) (b2 : S1x7.Idx → EReal)
    (x0 : Vec Ideal S400x10000 .f32) (x1 : Vec Ideal S10000x7 .f32) (x2 : Vec Ideal S1x7 .f32)
    (n : Nat) (y : S400x7.Idx) (i : S10000x7.Idx)
    (hi0 : (i 0).val = n * 400 + (y 0).val) (hi1 : (i 1).val = (y 1).val)
    (h0 : ∀ (p : Fin 400) (k' r : Fin 10000), r.val = n * 400 + p.val → x0 (ix2 p k') = A (ix2 r k'))
    (h1 : x1 = s2) (h2 : x2 = b2) :
    k1_pay1 (F := Ideal) x0 x1 x2 y = logits A s2 (fun j => b2 (ix2 0 (j 0))) i := by
  obtain ⟨p, q, rfl⟩ : ∃ (p : Fin 400) (q : Fin 7), y = ix2 p q := ⟨y 0, y 1, eq_ix2 y⟩
  obtain ⟨r, q', rfl⟩ : ∃ (r : Fin 10000) (q' : Fin 7), i = ix2 r q' := ⟨i 0, i 1, eq_ix2 i⟩
  obtain rfl : q = q' := Fin.ext hi1.symm
  rw [pay_logits]
  show logitRow _ _ _ q = logitRow (fun k' => A (ix2 r k')) s2 (fun q' => b2 (ix2 0 q')) q
  rw [h1, h2, funext fun k' => h0 p k' r hi0]

/-- What point `t` writes back is block `t` of L. -/
theorem flushedB_eq (c : Dev nD) (t : Fin cfg1.N) :
    (datB (F := Ideal) V c).flushed 3 t
      = ((cfg1.win 3).blk t).view.read (Elt Ideal) (logits (V c main_arg0) (V c main_v2) (fun j => V c main_v1 (ix2 0 (j 0)))) := by
  show (cfg1.win 3).cut (grid1.coords t) ((datB V c).after 3 t) = _
  rw [datB_after3]
  unfold outB
  rw [View.canon_unit_zero zero_offsets]
  simp only [View.ld_unit_zero (S := S400x10000) zero_offsets, View.ld_unit_zero (S := S10000x7) zero_offsets, View.ld_unit_zero (S := S1x7) zero_offsets]
  obtain ⟨e00, e01, e10, e11, e20, e21, e30, e31⟩ := idxB t
  funext y
  show k1_pay1 (F := Ideal) (blkB V c 0 t) (blkB V c 1 t) (blkB V c 2 t) y
    = logits (V c main_arg0) (V c main_v2) (fun j => V c main_v1 (ix2 0 (j 0))) (((cfg1.win 3).blk t).view.emb y)
  refine logits_point (V c main_arg0) (V c main_v2) (V c main_v1) _ _ _ t.val y _ ?_ ?_ ?_ ?_ ?_
  · show win1_3.index t (0 : Fin 2) * 400 + 1 * (y 0).val = _; rw [e30]; omega
  · show win1_3.index t (1 : Fin 2) * 7 + 1 * (y 1).val = _; rw [e31]; omega
  · intro p k' r hr
    show V c main_arg0 (((cfg1.win 0).blk t).view.emb (ix2 p k')) = V c main_arg0 (ix2 r k')
    congr 1; funext a; apply Fin.ext
    match a with
    | ⟨0, _⟩ => show win1_0.index t (0 : Fin 2) * 400 + 1 * p.val = r.val; rw [e00, hr]; omega
    | ⟨1, _⟩ => show win1_0.index t (1 : Fin 2) * 10000 + 1 * k'.val = k'.val; rw [e01]; omega
  · funext j
    show V c main_v2 (((cfg1.win 1).blk t).view.emb j) = V c main_v2 j
    congr 1; funext a; apply Fin.ext
    match a with
    | ⟨0, _⟩ => show win1_1.index t (0 : Fin 2) * 10000 + 1 * (j 0).val = (j 0).val; rw [e10]; omega
    | ⟨1, _⟩ => show win1_1.index t (1 : Fin 2) * 7 + 1 * (j 1).val = (j 1).val; rw [e11]; omega
  · funext j
    show V c main_v1 (((cfg1.win 2).blk t).view.emb j) = V c main_v1 j
    congr 1; funext a; apply Fin.ext
    match a with
    | ⟨0, _⟩ => show win1_2.index t (0 : Fin 2) * 1 + 1 * (j 0).val = (j 0).val; rw [e20]; omega
    | ⟨1, _⟩ => show win1_2.index t (1 : Fin 2) * 7 + 1 * (j 1).val = (j 1).val; rw [e21]; omega

/-- An index of the result array is in point `t`'s block iff each coordinate is in the block's range on its axis. -/
theorem mem_blkB (t : Fin cfg1.N) (i : S10000x7.Idx) :
    i ∈ ((cfg1.win 3).blk t).view.set ↔ ∀ a : Fin 2, win1_3.index t a * S400x7.size a ≤ (i a).val ∧ (i a).val < win1_3.index t a * S400x7.size a + S400x7.size a := by
  show i ∈ ((View.whole main_v3).slice (win1_3.rect t)).set ↔ _
  rw [View.set_slice_whole, Rect.mem_set_unit]
  exact Iff.rfl

/-- Row `r` of the result array is in the block of point `r / 400`. -/
theorem coverB_rows (i : S10000x7.Idx) : ∃ t : Fin cfg1.N, (cfg1.win 3).flush t = true ∧ i ∈ ((cfg1.win 3).blk t).view.set := by
  have hN : grid1.N = 25 := N_1
  have hi0 : (i 0).val < 10000 := (i 0).isLt
  have hi1 : (i 1).val < 7 := (i 1).isLt
  have ht : (i 0).val / 400 < cfg1.N := by show _ < grid1.N; rw [hN]; omega
  obtain ⟨-, -, -, -, -, -, e30, e31⟩ := idxB ⟨(i 0).val / 400, ht⟩
  refine ⟨⟨(i 0).val / 400, ht⟩, flush1_3 _, ?_⟩
  rw [mem_blkB]
  intro a
  match a with
  | ⟨0, _⟩ =>
    show win1_3.index ⟨(i 0).val / 400, ht⟩ (0 : Fin 2) * 400 ≤ (i 0).val ∧ (i 0).val < win1_3.index ⟨(i 0).val / 400, ht⟩ (0 : Fin 2) * 400 + 400
    rw [e30]; show (i 0).val / 400 * 400 ≤ (i 0).val ∧ (i 0).val < (i 0).val / 400 * 400 + 400; omega
  | ⟨1, _⟩ =>
    show win1_3.index ⟨(i 0).val / 400, ht⟩ (1 : Fin 2) * 7 ≤ (i 1).val ∧ (i 1).val < win1_3.index ⟨(i 0).val / 400, ht⟩ (1 : Fin 2) * 7 + 7
    rw [e31]; omega

/-- After the second pass the result array holds L = A · S₂ + b₂ of the arrays the pass found. -/
theorem secondPass_array (c : Dev nD) :
    (datB (F := Ideal) V c).arrAt 3 cfg1.N
      = logits (V c main_arg0) (V c main_v2) (fun j => V c main_v1 (ix2 0 (j 0))) :=
  (datB (F := Ideal) V c).arrAt_eq_of_cover 3 _ (fun t _ => flushedB_eq V c t) coverB_rows

/-! ## The first pass: the second-layer support after its 25 write-backs -/

/-- The block indices of the first pass over its grid: the adjacency rows and the output move with the point, every
    other window stays at block (0, 0). -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at any point is the whole feature matrix. -/
theorem blkA_feat (c : Dev nD) (t : Fin cfg0.N) : blkA (F := Ideal) V c 1 t = V c main_arg1 := by
  obtain ⟨-, -, e10, e11, -⟩ := idxA t
  funext j
  show V c main_arg1 (((cfg0.win 1).blk t).view.emb j) = V c main_arg1 j
  congr 1; funext a; apply Fin.ext
  match a with
  | ⟨0, _⟩ => show win0_1.index t (0 : Fin 2) * 10000 + 1 * (j 0).val = (j 0).val; rw [e10]; omega
  | ⟨1, _⟩ => show win0_1.index t (1 : Fin 2) * 128 + 1 * (j 1).val = (j 1).val; rw [e11]; omega

/-- The first weights' window's block at any point is the whole matrix. -/
theorem blkA_w1 (c : Dev nD) (t : Fin cfg0.N) : blkA (F := Ideal) V c 2 t = V c main_arg2 := by
  obtain ⟨-, -, -, -, e20, e21, -⟩ := idxA t
  funext j
  show V c main_arg2 (((cfg0.win 2).blk t).view.emb j) = V c main_arg2 j
  congr 1; funext a; apply Fin.ext
  match a with
  | ⟨0, _⟩ => show win0_2.index t (0 : Fin 2) * 128 + 1 * (j 0).val = (j 0).val; rw [e20]; omega
  | ⟨1, _⟩ => show win0_2.index t (1 : Fin 2) * 16 + 1 * (j 1).val = (j 1).val; rw [e21]; omega

/-- The bias row's window's block at any point is the whole row. -/
theorem blkA_b1 (c : Dev nD) (t : Fin cfg0.N) : blkA (F := Ideal) V c 3 t = V c main_v0 := by
  obtain ⟨-, -, -, -, -, -, e30, e31, -⟩ := idxA t
  funext j
  show V c main_v0 (((cfg0.win 3).blk t).view.emb j) = V c main_v0 j
  congr 1; funext a; apply Fin.ext
  match a with
  | ⟨0, _⟩ => show win0_3.index t (0 : Fin 2) * 1 + 1 * (j 0).val = (j 0).val; rw [e30]; omega
  | ⟨1, _⟩ => show win0_3.index t (1 : Fin 2) * 16 + 1 * (j 1).val = (j 1).val; rw [e31]; omega

/-- The second weights' window's block at any point is the whole matrix. -/
theorem blkA_w2 (c : Dev nD) (t : Fin cfg0.N) : blkA (F := Ideal) V c 4 t = V c main_arg4 := by
  obtain ⟨-, -, -, -, -, -, -, -, e40, e41, -⟩ := idxA t
  funext j
  show V c main_arg4 (((cfg0.win 4).blk t).view.emb j) = V c main_arg4 j
  congr 1; funext a; apply Fin.ext
  match a with
  | ⟨0, _⟩ => show win0_4.index t (0 : Fin 2) * 16 + 1 * (j 0).val = (j 0).val; rw [e40]; omega
  | ⟨1, _⟩ => show win0_4.index t (1 : Fin 2) * 7 + 1 * (j 1).val = (j 1).val; rw [e41]; omega

/-- The support the first point keeps is S₁ = X · W₁ of the arrays the pass found. -/
theorem supOf_eq (c : Dev nD) : supOf (F := Ideal) V c = support1 (V c main_arg1) (V c main_arg2) := by
  unfold supOf supA
  rw [View.canon_unit_zero zero_offsets]
  simp only [View.ld_unit_zero (S := S10000x128) zero_offsets, View.ld_unit_zero (S := S128x16) zero_offsets]
  rw [blkA_feat, blkA_w1, pay_support1]

/-- Row `400 n + p` of S₂ = max (A · S₁ + b₁, 0) · W₂, from a block `x0` holding rows `400 n …` of A, the whole of S₁,
    the bias row and the second weights. -/
theorem support2_point (A : Mat 10000 10000) (s1 : Mat 10000 16) (b1 : S1x16.Idx → EReal) (W2 : Mat 16 7)
    (x0 : Vec Ideal S400x10000 .f32) (s : Vec Ideal S10000x16 .f32) (x3 : Vec Ideal S1x16 .f32) (x4 : Vec Ideal S16x7 .f32)
    (n : Nat) (y : S400x7.Idx) (i : S10000x7.Idx)
    (hi0 : (i 0).val = n * 400 + (y 0).val) (hi1 : (i 1).val = (y 1).val)
    (h0 : ∀ (p : Fin 400) (k' r : Fin 10000), r.val = n * 400 + p.val → x0 (ix2 p k') = A (ix2 r k'))
    (hs : s = s1) (h3 : x3 = b1) (h4 : x4 = W2) :
    k0_pay2 (F := Ideal) x0 s x3 x4 y = support2 A s1 (fun j => b1 (ix2 0 (j 0))) W2 i := by
  obtain ⟨p, q, rfl⟩ : ∃ (p : Fin 400) (q : Fin 7), y = ix2 p q := ⟨y 0, y 1, eq_ix2 y⟩
  obtain ⟨r, q', rfl⟩ : ∃ (r : Fin 10000) (q' : Fin 7), i = ix2 r q' := ⟨i 0, i 1, eq_ix2 i⟩
  obtain rfl : q = q' := Fin.ext hi1.symm
  rw [pay_support2]
  show support2Row _ _ _ _ q = support2Row (fun k' => A (ix2 r k')) s1 (fun k => b1 (ix2 0 k)) W2 q
  rw [hs, h3, h4, funext fun k' => h0 p k' r hi0]

/-- What point `t` writes back is block `t` of S₂. -/
theorem flushedA_eq (c : Dev nD) (t : Fin cfg0.N) :
    (datA (F := Ideal) V c).flushed 5 t
      = ((cfg0.win 5).blk t).view.read (Elt Ideal)
          (support2 (V c main_arg0) (support1 (V c main_arg1) (V c main_arg2)) (fun j => V c main_v0 (ix2 0 (j 0))) (V c main_arg4)) := by
  show (cfg0.win 5).cut (grid0.coords t) ((datA V c).after 5 t) = _
  rw [datA_after5]
  unfold outA
  rw [View.canon_unit_zero zero_offsets]
  simp only [View.ld_unit_zero (S := S400x10000) zero_offsets, View.ld_unit_zero (S := S10000x16) zero_offsets,
    View.ld_unit_zero (S := S1x16) zero_offsets, View.ld_unit_zero (S := S16x7) zero_offsets]
  obtain ⟨e00, e01, -, -, -, -, -, -, -, -, e50, e51⟩ := idxA t
  funext y
  show k0_pay2 (F := Ideal) (blkA V c 0 t) (supOf V c) (blkA V c 3 t) (blkA V c 4 t) y
    = support2 (V c main_arg0) (support1 (V c main_arg1) (V c main_arg2)) (fun j => V c main_v0 (ix2 0 (j 0))) (V c main_arg4)
        (((cfg0.win 5).blk t).view.emb y)
  refine support2_point (V c main_arg0) _ (V c main_v0) (V c main_arg4) _ _ _ _ t.val y _ ?_ ?_ ?_ (supOf_eq V c) (blkA_b1 V c t) (blkA_w2 V c t)
  · show win0_5.index t (0 : Fin 2) * 400 + 1 * (y 0).val = _; rw [e50]; omega
  · show win0_5.index t (1 : Fin 2) * 7 + 1 * (y 1).val = _; rw [e51]; omega
  · intro p k' r hr
    show V c main_arg0 (((cfg0.win 0).blk t).view.emb (ix2 p k')) = V c main_arg0 (ix2 r k')
    congr 1; funext a; apply Fin.ext
    match a with
    | ⟨0, _⟩ => show win0_0.index t (0 : Fin 2) * 400 + 1 * p.val = r.val; rw [e00, hr]; omega
    | ⟨1, _⟩ => show win0_0.index t (1 : Fin 2) * 10000 + 1 * k'.val = k'.val; rw [e01]; omega

/-- An index of the support array is in point `t`'s block iff each coordinate is in the block's range on its axis. -/
theorem mem_blkA (t : Fin cfg0.N) (i : S10000x7.Idx) :
    i ∈ ((cfg0.win 5).blk t).view.set ↔ ∀ a : Fin 2, win0_5.index t a * S400x7.size a ≤ (i a).val ∧ (i a).val < win0_5.index t a * S400x7.size a + S400x7.size a := by
  show i ∈ ((View.whole main_v2).slice (win0_5.rect t)).set ↔ _
  rw [View.set_slice_whole, Rect.mem_set_unit]
  exact Iff.rfl

/-- Row `r` of the support array is in the block of point `r / 400`. -/
theorem coverA_rows (i : S10000x7.Idx) : ∃ t : Fin cfg0.N, (cfg0.win 5).flush t = true ∧ i ∈ ((cfg0.win 5).blk t).view.set := by
  have hN : grid0.N = 25 := N_0
  have hi0 : (i 0).val < 10000 := (i 0).isLt
  have hi1 : (i 1).val < 7 := (i 1).isLt
  have ht : (i 0).val / 400 < cfg0.N := by show _ < grid0.N; rw [hN]; omega
  obtain ⟨-, -, -, -, -, -, -, -, -, -, e50, e51⟩ := idxA ⟨(i 0).val / 400, ht⟩
  refine ⟨⟨(i 0).val / 400, ht⟩, flush0_5 _, ?_⟩
  rw [mem_blkA]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e50]; show (i 0).val / 400 * 400 ≤ (i 0).val ∧ (i 0).val < (i 0).val / 400 * 400 + 400; omega
  | ⟨1, _⟩ =>
    show win0_5.index ⟨(i 0).val / 400, ht⟩ (1 : Fin 2) * 7 ≤ (i 1).val ∧ (i 1).val < win0_5.index ⟨(i 0).val / 400, ht⟩ (1 : Fin 2) * 7 + 7
    rw [e51]; omega

/-- After the first pass the support array holds S₂ = max (A · (X · W₁) + b₁, 0) · W₂ of the arrays the pass found. -/
theorem firstPass_array (c : Dev nD) :
    (datA (F := Ideal) V c).arrAt 5 cfg0.N
      = support2 (V c main_arg0) (support1 (V c main_arg1) (V c main_arg2)) (fun j => V c main_v0 (ix2 0 (j 0))) (V c main_arg4) :=
  (datA (F := Ideal) V c).arrAt_eq_of_cover 5 _ (fun t _ => flushedA_eq V c t) coverA_rows

end Cert.KernelIdeal.Arrays

end
-- ==== Proof.ValueIdeal.lean ====
/-
  The idealized kernel's result array as one function of the launch arrays.  The second pass leaves A · S₂ + b₂ of the
  arrays it finds; it finds A as launched, b₂ with a unit axis in front, and for S₂ what the first pass left, which is
  max (A · (X · W₁) + b₁, 0) · W₂ of the arrays the first pass found: the arguments as launched and b₁ with a unit axis
  in front.  Put together, the result is the specification's function of the six arguments.
-/
import proofs.«116573_g28578712387911_cont_9to1_884_2_alg».proof.Proof.RunIdeal
import proofs.«116573_g28578712387911_cont_9to1_884_2_alg».proof.Proof.ArraysIdeal
import proofs.«116573_g28578712387911_cont_9to1_884_2_alg».proof.Proof.Spec
import Idealize.ShloMosaic.Lib.ValueLayout
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.TwoLayer Idealize.ShloMosaic.ValueIdx

section Entry
variable (m : (ℓ : Loc nD τ sig) → Buf (Elt Ideal) ℓ)

/-! ## What each pass finds in its input arrays, in terms of the launch contents -/

theorem inA_arg0 (c : Dev nD) : inA m c main_arg0 = m ((c : Thread nD τ).loc main_arg0) := memA_of_ne m c main_arg0 (by decide) (by decide)
theorem inA_arg1 (c : Dev nD) : inA m c main_arg1 = m ((c : Thread nD τ).loc main_arg1) := memA_of_ne m c main_arg1 (by decide) (by decide)
theorem inA_arg2 (c : Dev nD) : inA m c main_arg2 = m ((c : Thread nD τ).loc main_arg2) := memA_of_ne m c main_arg2 (by decide) (by decide)
theorem inA_arg4 (c : Dev nD) : inA m c main_arg4 = m ((c : Thread nD τ).loc main_arg4) := memA_of_ne m c main_arg4 (by decide) (by decide)

/-- The first bias row as the first pass finds it: the bias vector with a unit axis in front. -/
theorem inA_bias (c : Dev nD) :
    (fun j : (⟨1, ![16]⟩ : Shape).Idx => inA m c main_v0 (ix2 (0 : Fin 1) (j 0))) = m ((c : Thread nD τ).loc main_arg3) := by
  have e : (inA m c main_v0 : S1x16.Idx → EReal) = shapeCast S1x16 (m ((c : Thread nD τ).loc main_arg3)) shapeCasts_S16_S1x16 := by
    dsimp only [inA, memA, hostOps0]; after_results; rfl
  funext j
  rw [e]
  exact (shapeCast_a_1a_apply _ _ 0 (j 0)).trans (congrArg _ (eq_ix1 j).symm)

/-- The second bias row as the second pass finds it. -/
theorem inB_bias (c : Dev nD) :
    (fun j : (⟨1, ![7]⟩ : Shape).Idx => inB m c main_v1 (ix2 (0 : Fin 1) (j 0))) = m ((c : Thread nD τ).loc main_arg5) := by
  have e0 : inB m c main_v1 = memA m c (Proc.devRef .tc main_v1) := memB_of_ne m c main_v1 (by decide)
  have e : (memA m c (Proc.devRef .tc main_v1) : S1x7.Idx → EReal) = shapeCast S1x7 (m ((c : Thread nD τ).loc main_arg5)) shapeCasts_S7_S1x7 := by
    dsimp only [memA, hostOps0]; after_results; rfl
  funext j
  rw [e0, e]
  exact (shapeCast_a_1a_apply _ _ 0 (j 0)).trans (congrArg _ (eq_ix1 j).symm)

theorem inB_arg0 (c : Dev nD) : inB m c main_arg0 = m ((c : Thread nD τ).loc main_arg0) :=
  (memB_arr m c 0).trans (((datA (inA m) c).arrAt_in 0 rfl _).trans ((datA_A (inA m) c 0).trans (inA_arg0 m c)))

/-- The support the second pass reads is what the first pass's write-backs left. -/
theorem inB_support (c : Dev nD) : inB m c main_v2 = (datA (inA m) c).arrAt 5 cfg0.N := memB_arr m c 5

end Entry

section Result
variable (m : (ℓ : Loc nD τ sig) → Buf (Elt Ideal) ℓ)

/-- The result array after the run is the specification's function of the six argument arrays. -/
theorem result_value (c : Dev nD) :
    (datB (inB m) c).arrAt 3 cfg1.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Cert.KernelIdeal.Arrays.secondPass_array (inB m) c, inB_arg0, inB_bias, inB_support,
    Cert.KernelIdeal.Arrays.firstPass_array (inA m) c, inA_arg0, inA_arg1, inA_arg2, inA_bias, inA_arg4]
  rfl

end Result

end Cert.KernelIdeal.Hand

end
-- ==== Proof.ReferenceSpec.lean ====
/-
  The reference program's result is the specification's function G of its six arguments.

  The reference computes, with plain products over the whole arrays, S₁ = X · W₁, then A · S₁ plus the bias b₁ spread
  over the rows, the maximum with zero, the product with W₂, the product of A with that, and the bias b₂ spread over
  the rows.  Stage by stage these are the specification's support1, hiddenRow, support2 and logits: each product at an
  entry is the sum over the contracted index, each spread bias reads its one coordinate.
-/
import proofs.«116573_g28578712387911_cont_9to1_884_2_alg».proof.Proof.Gen.ReferenceIdeal.Read
import proofs.«116573_g28578712387911_cont_9to1_884_2_alg».proof.Proof.Spec

noncomputable section

namespace Cert.ReferenceIdeal.RefValue

open Cert.ReferenceIdeal Cert.ReferenceIdeal.Gen Cert.ReferenceIdeal.Read Cert.TwoLayer
open Idealize.ShloMosaic Idealize.ShloMosaic.ValueIdx

/-- The first product is the first-layer support S₁ = X · W₁. -/
theorem support1_eq (X : (⟨S10000x128, .f32⟩ : BufTy).Contents (Elt Ideal)) (W1 : (⟨S128x16, .f32⟩ : BufTy).Contents (Elt Ideal)) :
    val_main_v0 (F := Ideal) X W1 = support1 X W1 := by
  funext i
  obtain ⟨p, q, rfl⟩ : ∃ (p : Fin 10000) (q : Fin 16), i = ix2 p q := ⟨i 0, i 1, eq_ix2 i⟩
  rw [val_main_v0_apply]
  show _ = ∑ k : Fin 128, X (ix2 p k) * W1 (ix2 k q)
  refine Finset.sum_congr rfl fun k _ => ?_
  have el : lidx_main_v0 (ix2 p q) k = ix2 p k := funext fun a => Fin.ext (by match a with | ⟨0, _⟩ => rfl | ⟨1, _⟩ => rfl)
  have er : ridx_main_v0 (ix2 p q) k = ix2 k q := funext fun a => Fin.ext (by match a with | ⟨0, _⟩ => rfl | ⟨1, _⟩ => rfl)
  rw [el, er]

/-- An entry of the hidden layer: row `p` of A against column `k` of S₁, plus b₁ at `k`, clamped at zero. -/
theorem hidden_eq (A : (⟨S10000x10000, .f32⟩ : BufTy).Contents (Elt Ideal)) (X : (⟨S10000x128, .f32⟩ : BufTy).Contents (Elt Ideal))
    (W1 : (⟨S128x16, .f32⟩ : BufTy).Contents (Elt Ideal)) (b1 : (⟨S16, .f32⟩ : BufTy).Contents (Elt Ideal)) (p : Fin 10000) (k : Fin 16) :
    val_main_v6 (F := Ideal) A X W1 b1 (ix2 p k)
      = hiddenRow (fun k' => A (ix2 p k')) (support1 X W1) (fun k => b1 (ix1 k)) k := by
  rw [val_main_v6_apply, val_main_v4_apply, val_main_v1_apply, val_main_v3_apply, val_main_v2_apply, val_main_v5_apply,
    val_main_cst_apply, support1_eq]
  have eb : idx_main_v2 (idx_main_v3 (ix2 p k)) = ix1 k := funext fun a => Fin.ext (by match a with | ⟨0, _⟩ => rfl)
  rw [eb]
  show max ((∑ k' : Fin 10000, A (lidx_main_v1 (ix2 p k) k') * support1 X W1 (ridx_main_v1 (ix2 p k) k')) + b1 (ix1 k))
    (Ideal.ofBits .f32 0x00000000#32) = _
  rw [Ideal.ofBits_zero_f32]
  unfold hiddenRow
  refine congrArg (fun t => max (t + b1 (ix1 k)) 0) (Finset.sum_congr rfl fun k' _ => ?_)
  have el : lidx_main_v1 (ix2 p k) k' = ix2 p k' := funext fun a => Fin.ext (by match a with | ⟨0, _⟩ => rfl | ⟨1, _⟩ => rfl)
  have er : ridx_main_v1 (ix2 p k) k' = ix2 k' k := funext fun a => Fin.ext (by match a with | ⟨0, _⟩ => rfl | ⟨1, _⟩ => rfl)
  rw [el, er]

/-- The product of the hidden layer with W₂ is the second-layer support S₂. -/
theorem support2_eq (A : (⟨S10000x10000, .f32⟩ : BufTy).Contents (Elt Ideal)) (X : (⟨S10000x128, .f32⟩ : BufTy).Contents (Elt Ideal))
    (W1 : (⟨S128x16, .f32⟩ : BufTy).Contents (Elt Ideal)) (b1 : (⟨S16, .f32⟩ : BufTy).Contents (Elt Ideal))
    (W2 : (⟨S16x7, .f32⟩ : BufTy).Contents (Elt Ideal)) :
    val_main_v7 (F := Ideal) A X W1 b1 W2 = support2 A (support1 X W1) b1 W2 := by
  funext i
  obtain ⟨p, q, rfl⟩ : ∃ (p : Fin 10000) (q : Fin 7), i = ix2 p q := ⟨i 0, i 1, eq_ix2 i⟩
  rw [val_main_v7_apply]
  show _ = ∑ k : Fin 16, hiddenRow (fun k' => A (ix2 p k')) (support1 X W1) (fun k => b1 (ix1 k)) k * W2 (ix2 k q)
  refine Finset.sum_congr rfl fun k _ => ?_
  have el : lidx_main_v7 (ix2 p q) k = ix2 p k := funext fun a => Fin.ext (by match a with | ⟨0, _⟩ => rfl | ⟨1, _⟩ => rfl)
  have er : ridx_main_v7 (ix2 p q) k = ix2 k q := funext fun a => Fin.ext (by match a with | ⟨0, _⟩ => rfl | ⟨1, _⟩ => rfl)
  rw [el, er, hidden_eq]

/-- The last stage is G: row `p` of A against column `q` of S₂, plus b₂ at `q`. -/
theorem result_eq (A : (⟨S10000x10000, .f32⟩ : BufTy).Contents (Elt Ideal)) (X : (⟨S10000x128, .f32⟩ : BufTy).Contents (Elt Ideal))
    (W1 : (⟨S128x16, .f32⟩ : BufTy).Contents (Elt Ideal)) (b1 : (⟨S16, .f32⟩ : BufTy).Contents (Elt Ideal))
    (W2 : (⟨S16x7, .f32⟩ : BufTy).Contents (Elt Ideal)) (b2 : (⟨S7, .f32⟩ : BufTy).Contents (Elt Ideal)) :
    val_main_v11 (F := Ideal) A X W1 b1 W2 b2 = G A X W1 b1 W2 b2 := by
  funext i
  obtain ⟨p, q, rfl⟩ : ∃ (p : Fin 10000) (q : Fin 7), i = ix2 p q := ⟨i 0, i 1, eq_ix2 i⟩
  rw [val_main_v11_apply, val_main_v8_apply, val_main_v10_apply, val_main_v9_apply, support2_eq]
  have eb : idx_main_v9 (idx_main_v10 (ix2 p q)) = ix1 q := funext fun a => Fin.ext (by match a with | ⟨0, _⟩ => rfl)
  rw [eb]
  show (∑ k' : Fin 10000, A (lidx_main_v8 (ix2 p q) k') * support2 A (support1 X W1) b1 W2 (ridx_main_v8 (ix2 p q) k')) + b2 (ix1 q)
    = (∑ k' : Fin 10000, A (ix2 p k') * support2 A (support1 X W1) b1 W2 (ix2 k' q)) + b2 (ix1 q)
  refine congrArg (· + b2 (ix1 q)) (Finset.sum_congr rfl fun k' _ => ?_)
  have el : lidx_main_v8 (ix2 p q) k' = ix2 p k' := funext fun a => Fin.ext (by match a with | ⟨0, _⟩ => rfl | ⟨1, _⟩ => rfl)
  have er : ridx_main_v8 (ix2 p q) k' = ix2 k' q := funext fun a => Fin.ext (by match a with | ⟨0, _⟩ => rfl | ⟨1, _⟩ => rfl)
  rw [el, er]

/-- The same over the composed term of the six arrays, as the reference's run states its result. -/
theorem run_term_eq (A : (⟨S10000x10000, .f32⟩ : BufTy).Contents (Elt Ideal)) (X : (⟨S10000x128, .f32⟩ : BufTy).Contents (Elt Ideal))
    (W1 : (⟨S128x16, .f32⟩ : BufTy).Contents (Elt Ideal)) (b1 : (⟨S16, .f32⟩ : BufTy).Contents (Elt Ideal))
    (W2 : (⟨S16x7, .f32⟩ : BufTy).Contents (Elt Ideal)) (b2 : (⟨S7, .f32⟩ : BufTy).Contents (Elt Ideal)) :
    addf (F := Ideal) (Host.dotGeneral (F := Ideal) (φ₁ := .f32) (φ₂ := .f32) dot_S10000x10000_S10000x7_S10000x7_1_0_0_1_n_n none (A) (Host.dotGeneral (F := Ideal) (φ₁ := .f32) (φ₂ := .f32) dot_S10000x16_S16x7_S10000x7_1_0_0_1_n_n none (maximumf (F := Ideal) (addf (F := Ideal) (Host.dotGeneral (F := Ideal) (φ₁ := .f32) (φ₂ := .f32) dot_S10000x10000_S10000x16_S10000x16_1_0_0_1_n_n none (A) (Host.dotGeneral (F := Ideal) (φ₁ := .f32) (φ₂ := .f32) dot_S10000x128_S128x16_S10000x16_1_0_0_1_n_n none (X) (W1))) (broadcastInDim S10000x16 ![0, 1] bcast_S1x16_S10000x16_0_1 (broadcastInDim S1x16 ![1] bcast_S16_S1x16_1 (b1)))) (broadcastInDim S10000x16 ![] bcast_S_S10000x16 (constant (F := Ideal) S_ .f32 0x00000000#32))) (W2))) (broadcastInDim S10000x7 ![0, 1] bcast_S1x7_S10000x7_0_1 (broadcastInDim S1x7 ![1] bcast_S7_S1x7_1 (b2)))
      = G A X W1 b1 W2 b2 :=
  (val_main_v11_eq (F := Ideal) A X W1 b1 W2 b2).trans (result_eq A X W1 b1 W2 b2)

end Cert.ReferenceIdeal.RefValue

end
-- ==== Proof.lean ====
/-
  A two-layer graph convolution with a dense adjacency matrix A (10000 × 10000), features X (10000 × 128), weights
  W₁ (128 × 16), W₂ (16 × 7) and biases b₁, b₂:

      L = A · (max (A · (X · W₁) + b₁, 0) · W₂) + b₂.

  The kernel computes it in two passes over A, 400 rows at a time.  The first pass computes X · W₁ once, keeps it, and for
  each block of rows of A writes the matching rows of S₂ = max (A · (X · W₁) + b₁, 0) · W₂; the second pass writes, for
  each block of rows of A, the matching rows of A · S₂ + b₂.  The reference computes the same four products whole.  A row
  of S₂ and a row of L depend on one row of A only, every product is the plain sum over the contracted index, and over
  the extended reals a sum does not depend on how its terms are grouped into blocks of rows: so the two results are the
  same function of the six arguments, index by index, with no condition on the arguments' values.

  The claims: each of the three programs runs to the end without a fault and leaves its arguments alone (the two kernel
  programs by following every buffer through the two passes, the reference by its run); the idealized kernel is the
  kernel's own text read over the extended reals (nothing was rewritten, so there is nothing to state); and the idealized
  kernel and the idealized reference end with equal result arrays.
-/
import proofs.«116573_g28578712387911_cont_9to1_884_2_alg».proof.Defs
import proofs.«116573_g28578712387911_cont_9to1_884_2_alg».proof.Proof.Gen.Kernel
import proofs.«116573_g28578712387911_cont_9to1_884_2_alg».proof.Proof.Gen.KernelIdeal
import proofs.«116573_g28578712387911_cont_9to1_884_2_alg».proof.Proof.Gen.ReferenceIdeal
import proofs.«116573_g28578712387911_cont_9to1_884_2_alg».proof.Proof.Gen.Pre_finite_inputs
import proofs.«116573_g28578712387911_cont_9to1_884_2_alg».proof.Proof.Gen.ReferenceIdeal.Run
import proofs.«116573_g28578712387911_cont_9to1_884_2_alg».proof.Proof.Gen.ReferenceIdeal.Read
import proofs.«116573_g28578712387911_cont_9to1_884_2_alg».proof.Proof.Spec
import proofs.«116573_g28578712387911_cont_9to1_884_2_alg».proof.Proof.Frames
import proofs.«116573_g28578712387911_cont_9to1_884_2_alg».proof.Proof.ValueIdeal
import proofs.«116573_g28578712387911_cont_9to1_884_2_alg».proof.Proof.ReferenceSpec

noncomputable section

namespace Cert.Proof

open Idealize.ShloMosaic Idealize.ShloMosaic.TcCoe Idealize.SL.Sem

/-- No operation of the kernel was rewritten for the reading over the extended reals. -/
theorem preserves : Cert.preserves_Kernel_KernelIdeal := trivial

/-- Both idealized programs, run from memories that agree on the arguments, end with the same result array: the function
    `G` of the six argument arrays.  The kernel's side is its run followed by the reading of its result array; the reference's
    is its run, whose result term is `G`. -/
theorem algebraic : Cert.algebraic_KernelIdeal_ReferenceIdeal := by
  intro m ρ m' ρ' _ hagree
  refine ⟨fun c => Cert.TwoLayer.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_value m c), (h c).2⟩) (Cert.KernelIdeal.Hand.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.run_term_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, preserves, algebraic⟩

end Cert.Proof

end
